-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S1x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x1 .f32 := Host.absf main_arg7
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x32 .f32) (main_arg6 : FVec F S32 .f32) (main_arg7 : FVec F S1x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x32 : Shape := ⟨2, ![100000, 32]⟩
abbrev S2000x64 : Shape := ⟨2, ![2000, 64]⟩
abbrev S2000x1 : Shape := ⟨2, ![2000, 1]⟩
abbrev S2000x32 : Shape := ⟨2, ![2000, 32]⟩
abbrev S1600000x32 : Shape := ⟨2, ![1600000, 32]⟩
abbrev S1x32 : Shape := ⟨2, ![1, 32]⟩
abbrev S2000 : Shape := ⟨1, ![2000]⟩

abbrev nBuf : Space → Nat
  | .hbm => 47
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1, .f32⟩
  | .hbm, ⟨8, _⟩ => ⟨S1, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S100000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S1x32, .f32⟩
  | .hbm, ⟨45, _⟩ => ⟨S1x1, .f32⟩
  | .hbm, ⟨46, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x1, .f32⟩
  | .local _ .vmem, ⟨12, _⟩ => ⟨S2000x1, .f32⟩
  | .local _ .vmem, ⟨13, _⟩ => ⟨S1x32, .f32⟩
  | .local _ .vmem, ⟨14, _⟩ => ⟨S1x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  broadcasts_S1x1_S2000x1 : S1x1.Broadcasts S2000x1
  shapeCasts_S1x1_S1x1 : S1x1.ShapeCasts S1x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v14) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1, .f32⟩
  | .hbm, ⟨8, _⟩ => ⟨S1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x1_S1x1_S100000x1_1_0_0_1_n_n_wf : DotDims.WF S100000x1 S1x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf

class Facts : Prop extends Facts₀ where

variable [Facts]
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.KerBody0.lean ====
/-
  The first kernel's stored value, read at an index.

  On one tile of 2000 rows the body divides each aggregated row by its degree raised to at least one, multiplies by
  W1, adds the bias row, applies relu, and multiplies by W2 (the changes of float format are the identity on exact
  values).  At row p, column q of the tile:
      ∑ j, max ((∑ d, (agg p d / max (deg p) 1) · W1 d j) + b1 j) 0 · W2 j q.
-/
import proofs.«156890_j18442589569957_2_alg».proof.Proof.Gen.KernelIdeal.Skeleton
import proofs.«156890_j18442589569957_2_alg».proof.Proof.LibLayoutColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerValue

open Cert.KernelIdeal Cert.KernelIdeal.Gen Cert.Lib.Layout
open Idealize.ShloMosaic Idealize.ShloMosaic.ValueIdx

/-! The operand indices of the two products, axis by axis. -/

theorem dotW1_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem dotW1_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem dotW1_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem dotW1_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The first product of the body (a tile of rows by W1) at (p, q): the sum over the shared axis. -/
theorem matmul_rows_W1_apply (lhs : FVec Ideal S2000x64 .bf16) (rhs : FVec Ideal S64x64 .bf16) (p : Fin 2000) (q : Fin 64) :
    matmul dot_S2000x64_S64x64_S2000x64_1_0_0_1_n_n none lhs rhs (constant S2000x64 .f32 0x00000000#32) (ix2 p q)
      = ∑ k : Fin 64, lhs (ix2 p k) * rhs (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k :=
    funext fun a => Fin.ext (by
      match a with
      | ⟨0, _⟩ => exact dotW1_lhs_0 _ _
      | ⟨1, _⟩ => exact (dotW1_lhs_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q :=
    funext fun a => Fin.ext (by
      match a with
      | ⟨0, _⟩ => exact (dotW1_rhs_0 _ _).trans hk
      | ⟨1, _⟩ => exact dotW1_rhs_1 _ _)
  rw [el, er]

theorem dotW2_lhs_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl
theorem dotW2_lhs_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem dotW2_rhs_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem dotW2_rhs_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- The second product of the body (a tile of hidden rows by W2) at (p, q): the sum over the shared axis. -/
theorem matmul_rows_W2_apply (lhs : FVec Ideal S2000x64 .bf16) (rhs : FVec Ideal S64x32 .bf16) (p : Fin 2000) (q : Fin 32) :
    matmul dot_S2000x64_S64x32_S2000x32_1_0_0_1_n_n none lhs rhs (constant S2000x32 .f32 0x00000000#32) (ix2 p q)
      = ∑ k : Fin 64, lhs (ix2 p k) * rhs (ix2 k q) := by
  simp only [matmul]
  rw [Ideal.matmul_constant_zero_apply, ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p q) ((contrEquiv1 dot_S2000x64_S64x32_S2000x32_1_0_0_1_n_n 64 rfl rfl).symm k) = ix2 p k :=
    funext fun a => Fin.ext (by
      match a with
      | ⟨0, _⟩ => exact dotW2_lhs_0 _ _
      | ⟨1, _⟩ => exact (dotW2_lhs_1 _ _).trans hk)
  have er : dot_S2000x64_S64x32_S2000x32_1_0_0_1_n_n.rhsIdx (ix2 p q) ((contrEquiv1 dot_S2000x64_S64x32_S2000x32_1_0_0_1_n_n 64 rfl rfl).symm k) = ix2 k q :=
    funext fun a => Fin.ext (by
      match a with
      | ⟨0, _⟩ => exact (dotW2_rhs_0 _ _).trans hk
      | ⟨1, _⟩ => exact dotW2_rhs_1 _ _)
  rw [el, er]

/-- The stored tile at (p, q), from the loaded blocks: degree column v0, aggregated rows v4, W1 v9, bias row v12,
    W2 v19. -/
theorem k0_pay1_apply (v0 : Vec Ideal S2000x1 .f32) (v4 : Vec Ideal S2000x64 .f32) (v9 : Vec Ideal S64x64 .f32)
    (v12 : Vec Ideal S1x64 .f32) (v19 : Vec Ideal S64x32 .f32) (p : Fin 2000) (q : Fin 32) :
    k0_pay1 (F := Ideal) v0 v4 v9 v12 v19 (ix2 p q)
      = ∑ j : Fin 64,
          max ((∑ d : Fin 64, Ideal.div (v4 (ix2 p d)) (max (v0 (ix2 p (0 : Fin 1))) (Ideal.ofBits .f32 0x3F800000#32))
                  * v9 (ix2 d j)) + v12 (ix2 (0 : Fin 1) j)) (Ideal.ofBits .f32 0x00000000#32)
            * v19 (ix2 j q) := by
  unfold k0_pay1
  simp only [matmul_rows_W2_apply, matmul_rows_W1_apply, truncf_apply, maximumf_apply, addf_apply, divf_apply,
    broadcast_apply, shapeCast_self, broadcastTo_1b_ab_apply, broadcastTo_a1_ab_apply]
  rfl

end Cert.KernelIdeal.KerValue

end
-- ==== Proof.KerArray0.lean ====
/-
  The first kernel's output array.

  The first kernel runs over 50 tiles of 2000 rows.  Tile t reads rows 2000 t … 2000 t + 1999 of the aggregated
  features and of the degree column, and the whole of W1, of the bias row and of W2; it writes rows
  2000 t … 2000 t + 1999 of the output.  The 50 tiles cover the 100000 rows, so after the run the output array is,
  at every (n, k), the body's value computed from row n of the inputs:
      ∑ j, max ((∑ d, (agg n d / max (deg n) 1) · W1 d j) + b1 j) 0 · W2 j k.
-/
import proofs.«156890_j18442589569957_2_alg».proof.Proof.Gen.KernelIdeal.Frame
import proofs.«156890_j18442589569957_2_alg».proof.Proof.KerBody0
import Idealize.ShloMosaic.Lib.Pipeline.Value

set_option maxRecDepth 16384

noncomputable section

open scoped BigOperators

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row p of tile t is row 2000 t + p of the array. -/
def tileRow (t : Fin cfg0.N) (p : Fin 2000) : Fin 100000 :=
  ⟨t.val * 2000 + p.val, by have h : cfg0.N = 50 := N_0; have := t.isLt; have := p.isLt; omega⟩

/-- What the first kernel leaves in its output array, as one function of the five arrays it reads. -/
def tileOut0 (agg : S100000x64.Idx → EReal) (deg : S100000x1.Idx → EReal) (W1 : S64x64.Idx → EReal)
    (b1r : S1x64.Idx → EReal) (W2 : S64x32.Idx → EReal) : S100000x32.Idx → EReal := fun i =>
  ∑ j : Fin 64,
    max ((∑ d : Fin 64, Ideal.div (agg (ix2 (⟨(i 0).val, idx2_lt0 i⟩ : Fin 100000) d))
              (max (deg (ix2 (⟨(i 0).val, idx2_lt0 i⟩ : Fin 100000) (0 : Fin 1))) (Ideal.ofBits .f32 0x3F800000#32))
            * W1 (ix2 d j)) + b1r (ix2 (0 : Fin 1) j)) (Ideal.ofBits .f32 0x00000000#32)
      * W2 (ix2 j (⟨(i 1).val, idx2_lt1 i⟩ : Fin 32))

theorem origin2 : (![0, 0] : Fin 2 → Nat) = fun _ => 0 := funext fun a => by fin_cases a <;> rfl

/-- The index maps over the 50 tiles: the row-tiled windows sit at block (t, 0), the whole-array windows at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! The input blocks of tile t, read where they sit in their arrays. -/

theorem blk0_agg (c : Dev nD) (t : Fin cfg0.N) (p : Fin 2000) (d : Fin 64) :
    iblk0 V c 0 t (ix2 p d) = V c main_v14 (ix2 (tileRow t p) d) := by
  show V c main_v14 (((cfg0.win 0).blk t).view.emb (ix2 p d)) = V c main_v14 (ix2 (tileRow t p) d)
  refine congrArg (V c main_v14) (funext fun a => Fin.ext ?_)
  obtain ⟨e0, e1, -⟩ := idx_facts0 t
  match a with
  | ⟨0, _⟩ => show win0_0.index t (0 : Fin 2) * 2000 + 1 * p.val = t.val * 2000 + p.val; omega
  | ⟨1, _⟩ => show win0_0.index t (1 : Fin 2) * 64 + 1 * d.val = d.val; omega

theorem blk0_deg (c : Dev nD) (t : Fin cfg0.N) (p : Fin 2000) (u : Fin 1) :
    iblk0 V c 1 t (ix2 p u) = V c main_v4 (ix2 (tileRow t p) u) := by
  show V c main_v4 (((cfg0.win 1).blk t).view.emb (ix2 p u)) = V c main_v4 (ix2 (tileRow t p) u)
  refine congrArg (V c main_v4) (funext fun a => Fin.ext ?_)
  obtain ⟨-, -, e0, e1, -⟩ := idx_facts0 t
  match a with
  | ⟨0, _⟩ => show win0_1.index t (0 : Fin 2) * 2000 + 1 * p.val = t.val * 2000 + p.val; omega
  | ⟨1, _⟩ => show win0_1.index t (1 : Fin 2) * 1 + 1 * u.val = u.val; omega

theorem blk0_W1 (c : Dev nD) (t : Fin cfg0.N) (d j : Fin 64) :
    iblk0 V c 2 t (ix2 d j) = V c main_arg3 (ix2 d j) := by
  show V c main_arg3 (((cfg0.win 2).blk t).view.emb (ix2 d j)) = V c main_arg3 (ix2 d j)
  refine congrArg (V c main_arg3) (funext fun a => Fin.ext ?_)
  obtain ⟨-, -, -, -, e0, e1, -⟩ := idx_facts0 t
  match a with
  | ⟨0, _⟩ => show win0_2.index t (0 : Fin 2) * 64 + 1 * d.val = d.val; omega
  | ⟨1, _⟩ => show win0_2.index t (1 : Fin 2) * 64 + 1 * j.val = j.val; omega

theorem blk0_b1 (c : Dev nD) (t : Fin cfg0.N) (u : Fin 1) (j : Fin 64) :
    iblk0 V c 3 t (ix2 u j) = V c main_v15 (ix2 u j) := by
  show V c main_v15 (((cfg0.win 3).blk t).view.emb (ix2 u j)) = V c main_v15 (ix2 u j)
  refine congrArg (V c main_v15) (funext fun a => Fin.ext ?_)
  obtain ⟨-, -, -, -, -, -, e0, e1, -⟩ := idx_facts0 t
  match a with
  | ⟨0, _⟩ => show win0_3.index t (0 : Fin 2) * 1 + 1 * u.val = u.val; omega
  | ⟨1, _⟩ => show win0_3.index t (1 : Fin 2) * 64 + 1 * j.val = j.val; omega

theorem blk0_W2 (c : Dev nD) (t : Fin cfg0.N) (j : Fin 64) (k : Fin 32) :
    iblk0 V c 4 t (ix2 j k) = V c main_arg5 (ix2 j k) := by
  show V c main_arg5 (((cfg0.win 4).blk t).view.emb (ix2 j k)) = V c main_arg5 (ix2 j k)
  refine congrArg (V c main_arg5) (funext fun a => Fin.ext ?_)
  obtain ⟨-, -, -, -, -, -, -, -, e0, e1, -⟩ := idx_facts0 t
  match a with
  | ⟨0, _⟩ => show win0_4.index t (0 : Fin 2) * 64 + 1 * j.val = j.val; omega
  | ⟨1, _⟩ => show win0_4.index t (1 : Fin 2) * 32 + 1 * k.val = k.val; omega

/-- Where entry (p, q) of tile t's output block sits in the output array. -/
theorem emb0_out (t : Fin cfg0.N) (p : Fin 2000) (q : Fin 32) :
    ((cfg0.win 5).blk t).view.emb (ix2 p q) = ix2 (tileRow t p) q := by
  refine funext fun a => Fin.ext ?_
  obtain ⟨-, -, -, -, -, -, -, -, -, -, e0, e1⟩ := idx_facts0 t
  match a with
  | ⟨0, _⟩ => show win0_5.index t (0 : Fin 2) * 2000 + 1 * p.val = t.val * 2000 + p.val; omega
  | ⟨1, _⟩ => show win0_5.index t (1 : Fin 2) * 32 + 1 * q.val = q.val; omega

/-- What tile t writes back is block t of the one function of the five input arrays. -/
theorem flushed0_eq (c : Dev nD) (t : Fin cfg0.N) :
    (dat0 V c).flushed 5 t = ((cfg0.win 5).blk t).view.read (Elt Ideal)
      (tileOut0 (V c main_v14) (V c main_v4) (V c main_arg3) (V c main_v15) (V c main_arg5)) := by
  show (cfg0.win 5).cut (grid0.coords t) ((dat0 V c).after 5 t) = _
  rw [after0_5]
  unfold out0_5
  rw [View.canon_unit_zero origin2]
  simp only [View.ld_unit_zero (S := S2000x1) origin2, View.ld_unit_zero (S := S2000x64) origin2,
    View.ld_unit_zero (S := S64x64) origin2, View.ld_unit_zero (S := S1x64) origin2,
    View.ld_unit_zero (S := S64x32) origin2]
  funext y
  obtain ⟨p, q, rfl⟩ : ∃ (p : Fin 2000) (q : Fin 32), y = ix2 p q := ⟨y 0, y 1, eq_ix2 y⟩
  show k0_pay1 (F := Ideal) (iblk0 V c 1 t) (iblk0 V c 0 t) (iblk0 V c 2 t) (iblk0 V c 3 t) (iblk0 V c 4 t) (ix2 p q)
    = tileOut0 (V c main_v14) (V c main_v4) (V c main_arg3) (V c main_v15) (V c main_arg5)
        (((cfg0.win 5).blk t).view.emb (ix2 p q))
  rw [emb0_out t p q]
  refine (k0_pay1_apply (iblk0 V c 1 t) (iblk0 V c 0 t) (iblk0 V c 2 t) (iblk0 V c 3 t) (iblk0 V c 4 t) p q).trans ?_
  simp only [blk0_agg, blk0_deg, blk0_W1, blk0_b1, blk0_W2]
  rfl

/-- An index is in tile t's output block exactly when its row lies in the tile's 2000 rows. -/
theorem mem_blk0 (t : Fin cfg0.N) (i : S100000x32.Idx) :
    i ∈ ((cfg0.win 5).blk t).view.set ↔ ∀ a : Fin 2, win0_5.index t a * S2000x32.size a ≤ (i a).val
      ∧ (i a).val < win0_5.index t a * S2000x32.size a + S2000x32.size a := by
  show i ∈ ((View.whole main_v16).slice (win0_5.rect t)).set ↔ _
  rw [View.set_slice_whole, Rect.mem_set_unit]
  exact Iff.rfl

/-- Every index of the output array lies in some tile's block. -/
theorem cover0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have h50 : cfg0.N = 50 := N_0
  let t : Fin cfg0.N := ⟨(i 0).val / 2000, by omega⟩
  refine ⟨t, flush0_5 t, ?_⟩
  rw [mem_blk0]
  obtain ⟨-, -, -, -, -, -, -, -, -, -, e0, e1⟩ := idx_facts0 t
  have ht : t.val = (i 0).val / 2000 := rfl
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 32 ≤ (i 1).val ∧ (i 1).val < win0_5.index t (1 : Fin 2) * 32 + 32
    omega

/-- The output array after the first kernel's 50 tiles. -/
theorem array0 (c : Dev nD) :
    (dat0 V c).arrAt 5 cfg0.N
      = tileOut0 (V c main_v14) (V c main_v4) (V c main_arg3) (V c main_v15) (V c main_arg5) :=
  (dat0 V c).arrAt_eq_of_cover 5 _ (fun t _ => flushed0_eq V c t) cover0

end Cert.KernelIdeal.KerValue

end
-- ==== Proof.KerBody1.lean ====
/-
  The second kernel's stored value, read at an index.

  On one tile of 2000 rows the body divides each aggregated row by its degree raised to at least one, adds the bias
  row, applies relu, takes the mean of the 32 columns (their sum divided by 32), multiplies by the 1×1 weight, adds
  the 1×1 bias and applies the logistic function.  At row p of the tile:
      logistic ((∑ k, max (agg p k / max (deg p) 1 + b2 k) 0) / 32 · wd + bd).
-/
import proofs.«156890_j18442589569957_2_alg».proof.Proof.Gen.KernelIdeal.Skeleton
import proofs.«156890_j18442589569957_2_alg».proof.Proof.LibLayoutColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerValue

open Cert.KernelIdeal Cert.KernelIdeal.Gen Cert.Lib.Layout
open Idealize.ShloMosaic Idealize.ShloMosaic.ValueIdx

/-- The logistic function acts entry by entry. -/
theorem logistic_at {s : Shape} {φ : FTy} (a : FVec Ideal s φ) (i : s.Idx) : logistic a i = Ideal.logistic (a i) := rfl

/-- The body's sum along the 32 columns, at row p. -/
theorem rowsum_apply (src : FVec Ideal S2000x32 .f32) (hφ : FKind.Formats FTy.f32)
    (hacc : (0x00000000#32 : BitVec FTy.f32.bits) = FKind.add.neutral FTy.f32 hφ) (p : Fin 2000) :
    multiReduction .add [1] S2000 src 0x00000000#32 reduces_S2000x32_S2000 hφ hacc (ix1 p)
      = ∑ k : Fin 32, src (ix2 p k) := by
  refine (Ideal.multiReduction_add_single src 0x00000000#32 reduces_S2000x32_S2000 hφ hacc (ix1 p)).trans ?_
  refine Finset.sum_congr rfl fun k _ => congrArg src (funext fun a => Fin.ext ?_)
  match a with
  | ⟨0, _⟩ => rfl
  | ⟨1, _⟩ => rfl

/-- The stored tile at row p, from the loaded blocks: degree column v0, aggregated rows v4, bias row v8, the 1×1
    weight v18 and the 1×1 bias v21. -/
theorem k1_pay1_apply (v0 : Vec Ideal S2000x1 .f32) (v4 : Vec Ideal S2000x32 .f32) (v8 : Vec Ideal S1x32 .f32)
    (v18 v21 : Vec Ideal S1x1 .f32) (p : Fin 2000) :
    k1_pay1 (F := Ideal) v0 v4 v8 v18 v21 (ix2 p (0 : Fin 1))
      = Ideal.logistic
          (Ideal.div (∑ k : Fin 32,
              max (Ideal.div (v4 (ix2 p k)) (max (v0 (ix2 p (0 : Fin 1))) (Ideal.ofBits .f32 0x3F800000#32))
                    + v8 (ix2 (0 : Fin 1) k)) (Ideal.ofBits .f32 0x00000000#32))
            (Ideal.ofBits .f32 0x42000000#32) * v18 (ix2 (0 : Fin 1) (0 : Fin 1)) + v21 (ix2 (0 : Fin 1) (0 : Fin 1))) := by
  unfold k1_pay1
  simp only [logistic_at, addf_apply, mulf_apply, divf_apply, broadcast_apply, shapeCast_self,
    broadcastTo_1b_ab_apply, shapeCast_a_a1_apply]
  refine congrArg (fun s => Ideal.logistic (Ideal.div s _ * _ + _)) ?_
  refine (rowsum_apply _ _ _ p).trans ?_
  refine Finset.sum_congr rfl fun k _ => ?_
  simp only [addf_apply, divf_apply, maximumf_apply, broadcast_apply, broadcastTo_1b_ab_apply, broadcastTo_a1_ab_apply]
  rfl

end Cert.KernelIdeal.KerValue

end
-- ==== Proof.KerArray1.lean ====
/-
  The second kernel's output array.

  The second kernel runs over 50 tiles of 2000 rows.  Tile t reads rows 2000 t … 2000 t + 1999 of the aggregated
  projections and of the degree column, and the whole of the bias row, of the 1×1 weight and of the 1×1 bias; it
  writes rows 2000 t … 2000 t + 1999 of the one-column output.  The 50 tiles cover the 100000 rows, so after the run
  the output array is, at every row n,
      logistic ((∑ k, max (agg n k / max (deg n) 1 + b2 k) 0) / 32 · wd + bd).
-/
import proofs.«156890_j18442589569957_2_alg».proof.Proof.Gen.KernelIdeal.Frame
import proofs.«156890_j18442589569957_2_alg».proof.Proof.KerBody1
import Idealize.ShloMosaic.Lib.Pipeline.Value

set_option maxRecDepth 16384

noncomputable section

open scoped BigOperators

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row p of the second kernel's tile t is row 2000 t + p of the array. -/
def tileRow1 (t : Fin cfg1.N) (p : Fin 2000) : Fin 100000 :=
  ⟨t.val * 2000 + p.val, by have h : cfg1.N = 50 := N_1; have := t.isLt; have := p.isLt; omega⟩

/-- What the second kernel leaves in its output array, as one function of the five arrays it reads. -/
def tileOut1 (agg : S100000x32.Idx → EReal) (deg : S100000x1.Idx → EReal) (b2r : S1x32.Idx → EReal)
    (wd : S1x1.Idx → EReal) (bdr : S1x1.Idx → EReal) : S100000x1.Idx → EReal := fun i =>
  Ideal.logistic
    (Ideal.div (∑ k : Fin 32,
        max (Ideal.div (agg (ix2 (⟨(i 0).val, idx2_lt0 i⟩ : Fin 100000) k))
                (max (deg (ix2 (⟨(i 0).val, idx2_lt0 i⟩ : Fin 100000) (0 : Fin 1))) (Ideal.ofBits .f32 0x3F800000#32))
              + b2r (ix2 (0 : Fin 1) k)) (Ideal.ofBits .f32 0x00000000#32))
      (Ideal.ofBits .f32 0x42000000#32) * wd (ix2 (0 : Fin 1) (0 : Fin 1)) + bdr (ix2 (0 : Fin 1) (0 : Fin 1)))

theorem origin2' : (![0, 0] : Fin 2 → Nat) = fun _ => 0 := funext fun a => by fin_cases a <;> rfl

/-- The index maps over the 50 tiles: the row-tiled windows sit at block (t, 0), the whole-array windows at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! The input blocks of tile t, read where they sit in their arrays. -/

theorem blk1_agg (c : Dev nD) (t : Fin cfg1.N) (p : Fin 2000) (k : Fin 32) :
    iblk1 V c 0 t (ix2 p k) = V c main_v26 (ix2 (tileRow1 t p) k) := by
  show V c main_v26 (((cfg1.win 0).blk t).view.emb (ix2 p k)) = V c main_v26 (ix2 (tileRow1 t p) k)
  refine congrArg (V c main_v26) (funext fun a => Fin.ext ?_)
  obtain ⟨e0, e1, -⟩ := idx_facts1 t
  match a with
  | ⟨0, _⟩ => show win1_0.index t (0 : Fin 2) * 2000 + 1 * p.val = t.val * 2000 + p.val; omega
  | ⟨1, _⟩ => show win1_0.index t (1 : Fin 2) * 32 + 1 * k.val = k.val; omega

theorem blk1_deg (c : Dev nD) (t : Fin cfg1.N) (p : Fin 2000) (u : Fin 1) :
    iblk1 V c 1 t (ix2 p u) = V c main_v4 (ix2 (tileRow1 t p) u) := by
  show V c main_v4 (((cfg1.win 1).blk t).view.emb (ix2 p u)) = V c main_v4 (ix2 (tileRow1 t p) u)
  refine congrArg (V c main_v4) (funext fun a => Fin.ext ?_)
  obtain ⟨-, -, e0, e1, -⟩ := idx_facts1 t
  match a with
  | ⟨0, _⟩ => show win1_1.index t (0 : Fin 2) * 2000 + 1 * p.val = t.val * 2000 + p.val; omega
  | ⟨1, _⟩ => show win1_1.index t (1 : Fin 2) * 1 + 1 * u.val = u.val; omega

theorem blk1_b2 (c : Dev nD) (t : Fin cfg1.N) (u : Fin 1) (k : Fin 32) :
    iblk1 V c 2 t (ix2 u k) = V c main_v27 (ix2 u k) := by
  show V c main_v27 (((cfg1.win 2).blk t).view.emb (ix2 u k)) = V c main_v27 (ix2 u k)
  refine congrArg (V c main_v27) (funext fun a => Fin.ext ?_)
  obtain ⟨-, -, -, -, e0, e1, -⟩ := idx_facts1 t
  match a with
  | ⟨0, _⟩ => show win1_2.index t (0 : Fin 2) * 1 + 1 * u.val = u.val; omega
  | ⟨1, _⟩ => show win1_2.index t (1 : Fin 2) * 32 + 1 * k.val = k.val; omega

theorem blk1_wd (c : Dev nD) (t : Fin cfg1.N) (u v : Fin 1) :
    iblk1 V c 3 t (ix2 u v) = V c main_arg7 (ix2 u v) := by
  show V c main_arg7 (((cfg1.win 3).blk t).view.emb (ix2 u v)) = V c main_arg7 (ix2 u v)
  refine congrArg (V c main_arg7) (funext fun a => Fin.ext ?_)
  obtain ⟨-, -, -, -, -, -, e0, e1, -⟩ := idx_facts1 t
  match a with
  | ⟨0, _⟩ => show win1_3.index t (0 : Fin 2) * 1 + 1 * u.val = u.val; omega
  | ⟨1, _⟩ => show win1_3.index t (1 : Fin 2) * 1 + 1 * v.val = v.val; omega

theorem blk1_bd (c : Dev nD) (t : Fin cfg1.N) (u v : Fin 1) :
    iblk1 V c 4 t (ix2 u v) = V c main_v28 (ix2 u v) := by
  show V c main_v28 (((cfg1.win 4).blk t).view.emb (ix2 u v)) = V c main_v28 (ix2 u v)
  refine congrArg (V c main_v28) (funext fun a => Fin.ext ?_)
  obtain ⟨-, -, -, -, -, -, -, -, e0, e1, -⟩ := idx_facts1 t
  match a with
  | ⟨0, _⟩ => show win1_4.index t (0 : Fin 2) * 1 + 1 * u.val = u.val; omega
  | ⟨1, _⟩ => show win1_4.index t (1 : Fin 2) * 1 + 1 * v.val = v.val; omega

/-- Where entry (p, 0) of tile t's output block sits in the output array. -/
theorem emb1_out (t : Fin cfg1.N) (p : Fin 2000) (u : Fin 1) :
    ((cfg1.win 5).blk t).view.emb (ix2 p u) = ix2 (tileRow1 t p) u := by
  refine funext fun a => Fin.ext ?_
  obtain ⟨-, -, -, -, -, -, -, -, -, -, e0, e1⟩ := idx_facts1 t
  match a with
  | ⟨0, _⟩ => show win1_5.index t (0 : Fin 2) * 2000 + 1 * p.val = t.val * 2000 + p.val; omega
  | ⟨1, _⟩ => show win1_5.index t (1 : Fin 2) * 1 + 1 * u.val = u.val; omega

/-- What tile t writes back is block t of the one function of the five input arrays. -/
theorem flushed1_eq (c : Dev nD) (t : Fin cfg1.N) :
    (dat1 V c).flushed 5 t = ((cfg1.win 5).blk t).view.read (Elt Ideal)
      (tileOut1 (V c main_v26) (V c main_v4) (V c main_v27) (V c main_arg7) (V c main_v28)) := by
  show (cfg1.win 5).cut (grid1.coords t) ((dat1 V c).after 5 t) = _
  rw [after1_5]
  unfold out1_5
  rw [View.canon_unit_zero origin2']
  simp only [View.ld_unit_zero (S := S2000x1) origin2', View.ld_unit_zero (S := S2000x32) origin2',
    View.ld_unit_zero (S := S1x32) origin2', View.ld_unit_zero (S := S1x1) origin2']
  funext y
  obtain ⟨p, u, rfl⟩ : ∃ (p : Fin 2000) (u : Fin 1), y = ix2 p u := ⟨y 0, y 1, eq_ix2 y⟩
  obtain rfl : u = 0 := Subsingleton.elim _ _
  show k1_pay1 (F := Ideal) (iblk1 V c 1 t) (iblk1 V c 0 t) (iblk1 V c 2 t) (iblk1 V c 3 t) (iblk1 V c 4 t) (ix2 p (0 : Fin 1))
    = tileOut1 (V c main_v26) (V c main_v4) (V c main_v27) (V c main_arg7) (V c main_v28)
        (((cfg1.win 5).blk t).view.emb (ix2 p (0 : Fin 1)))
  rw [emb1_out t p 0]
  refine (k1_pay1_apply (iblk1 V c 1 t) (iblk1 V c 0 t) (iblk1 V c 2 t) (iblk1 V c 3 t) (iblk1 V c 4 t) p).trans ?_
  simp only [blk1_agg, blk1_deg, blk1_b2, blk1_wd, blk1_bd]
  rfl

/-- An index is in tile t's output block exactly when its row lies in the tile's 2000 rows. -/
theorem mem_blk1 (t : Fin cfg1.N) (i : S100000x1.Idx) :
    i ∈ ((cfg1.win 5).blk t).view.set ↔ ∀ a : Fin 2, win1_5.index t a * S2000x1.size a ≤ (i a).val
      ∧ (i a).val < win1_5.index t a * S2000x1.size a + S2000x1.size a := by
  show i ∈ ((View.whole main_v29).slice (win1_5.rect t)).set ↔ _
  rw [View.set_slice_whole, Rect.mem_set_unit]
  exact Iff.rfl

/-- Every index of the output array lies in some tile's block. -/
theorem cover1 (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have h50 : cfg1.N = 50 := N_1
  let t : Fin cfg1.N := ⟨(i 0).val / 2000, by omega⟩
  refine ⟨t, flush1_5 t, ?_⟩
  rw [mem_blk1]
  obtain ⟨-, -, -, -, -, -, -, -, -, -, e0, e1⟩ := idx_facts1 t
  have ht : t.val = (i 0).val / 2000 := rfl
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 1 ≤ (i 1).val ∧ (i 1).val < win1_5.index t (1 : Fin 2) * 1 + 1
    omega

/-- The output array after the second kernel's 50 tiles. -/
theorem array1 (c : Dev nD) :
    (dat1 V c).arrAt 5 cfg1.N
      = tileOut1 (V c main_v26) (V c main_v4) (V c main_v27) (V c main_arg7) (V c main_v28) :=
  (dat1 V c).arrAt_eq_of_cover 5 _ (fun t _ => flushed1_eq V c t) cover1

end Cert.KernelIdeal.KerValue

end
-- ==== Proof.Spec.lean ====
/-
  The mathematics of the two-layer mean-aggregating graph convolution with a pooled logistic head, stated once,
  index by index, over the extended reals.

  An edge e reads the table row (srcRow src e): its source index, a negative one wrapped once by the row count,
  then clamped into the table.  It lands on the row n when its destination index, read as a signed integer, is n
  (an index outside the table lands nowhere).  (segSum dst f n) is the sum of f e over the edges landing on n;
  (degree dst n) is the number of such edges, raised to at least one.

  Layer one is hidden = relu ((agg x / degree) · W1 + b1).  Layer two exists in two arrangements that differ in
  where the second weight matrix is applied:
    · refPre: aggregate the 64 hidden columns over the edges, divide by the degree, then multiply by W2;
    · kerPre: multiply each hidden row by W2 first (proj), then aggregate the 32 projected columns and divide.
  Both then add b2 and apply relu; head pools the 32 columns by their mean, applies the 1×1 dense layer and the
  logistic function.  kerOut = refOut on real data is linearity of the edge sum and of the division by the degree.
-/
import Idealize.ShloMosaic.PureOps.Ideal
import Idealize.ShloMosaic.Lib.ValueIdx

noncomputable section

open scoped BigOperators

namespace Cert.GraphConv

open Idealize.ShloMosaic Idealize.ShloMosaic.ValueIdx

/-- A table of r rows and c columns of extended reals. -/
abbrev Mat (r c : Nat) : Type := (⟨2, ![r, c]⟩ : Shape).Idx → EReal
/-- A row of c extended reals. -/
abbrev Row (c : Nat) : Type := (⟨1, ![c]⟩ : Shape).Idx → EReal
/-- The 1 600 000 edge indices, 32-bit words. -/
abbrev Edges : Type := (⟨1, ![1600000]⟩ : Shape).Idx → BitVec 32

/-- Edge e's source index with a negative value wrapped once by the row count. -/
def wrapped (src : Edges) (e : Fin 1600000) : BitVec 32 :=
  Scalar.select (IntOp.cmpi .slt (src (ix1 e)) 0#32) (IntOp.addi (src (ix1 e)) 100000#32) (src (ix1 e))

/-- The table row edge e reads: the wrapped source index as a signed integer, clamped into [0, 99999]. -/
def srcRow (src : Edges) (e : Fin 1600000) : Fin 100000 :=
  ⟨min (wrapped src e).toInt.toNat (100000 - 1), by omega⟩

/-- Edge e lands on row n: its destination index, read signed, is n. -/
def lands (dst : Edges) (e : Fin 1600000) (n : Fin 100000) : Prop := (dst (ix1 e)).toInt = (n.val : Int)

instance (dst : Edges) (n : Fin 100000) : DecidablePred fun e => lands dst e n :=
  fun e => inferInstanceAs (Decidable ((dst (ix1 e)).toInt = (n.val : Int)))

/-- The sum of f over the edges landing on row n. -/
def segSum (dst : Edges) (f : Fin 1600000 → EReal) (n : Fin 100000) : EReal :=
  ∑ e ∈ Finset.univ.filter (fun e => lands dst e n), f e

/-- The number of edges landing on row n, raised to at least one. -/
def degree (dst : Edges) (n : Fin 100000) : EReal := max (0 + segSum dst (fun _ => 1) n) 1

/-- One column of a table gathered along the edges' source rows and summed at their destinations. -/
def agg (src dst : Edges) (col : Fin 100000 → EReal) (n : Fin 100000) : EReal :=
  0 + segSum dst (fun e => col (srcRow src e)) n

/-- Layer one: relu ((agg x / degree) · W1 + b1) at row n, column j. -/
def hidden (x : Mat 100000 64) (src dst : Edges) (W1 : Mat 64 64) (b1 : Row 64) (n : Fin 100000) (j : Fin 64) : EReal :=
  max ((∑ d : Fin 64, Ideal.div (agg src dst (fun r => x (ix2 r d)) n) (degree dst n) * W1 (ix2 d j)) + b1 (ix1 j)) 0

/-- Layer two before pooling, the reference's arrangement: aggregate the hidden columns, normalise, then apply W2. -/
def refPre (x : Mat 100000 64) (src dst : Edges) (W1 : Mat 64 64) (b1 : Row 64) (W2 : Mat 64 32) (b2 : Row 32)
    (n : Fin 100000) (k : Fin 32) : EReal :=
  max ((∑ j : Fin 64, Ideal.div (agg src dst (fun r => hidden x src dst W1 b1 r j) n) (degree dst n) * W2 (ix2 j k))
    + b2 (ix1 k)) 0

/-- A hidden row multiplied by W2: what the first kernel writes. -/
def proj (x : Mat 100000 64) (src dst : Edges) (W1 : Mat 64 64) (b1 : Row 64) (W2 : Mat 64 32)
    (n : Fin 100000) (k : Fin 32) : EReal :=
  ∑ j : Fin 64, hidden x src dst W1 b1 n j * W2 (ix2 j k)

/-- Layer two before pooling, the kernel's arrangement: apply W2 row by row, then aggregate and normalise. -/
def kerPre (x : Mat 100000 64) (src dst : Edges) (W1 : Mat 64 64) (b1 : Row 64) (W2 : Mat 64 32) (b2 : Row 32)
    (n : Fin 100000) (k : Fin 32) : EReal :=
  max (Ideal.div (agg src dst (fun r => proj x src dst W1 b1 W2 r k) n) (degree dst n) + b2 (ix1 k)) 0

/-- The head: the mean of the 32 columns, the 1×1 dense layer, the logistic function. -/
def head (Wd : Mat 1 1) (bd : Row 1) (p : Fin 32 → EReal) : EReal :=
  Ideal.logistic (Ideal.div (∑ k : Fin 32, p k) 32 * Wd (ix2 0 0) + bd (ix1 0))

/-- The reference's result at row n. -/
def refOut (x : Mat 100000 64) (src dst : Edges) (W1 : Mat 64 64) (b1 : Row 64) (W2 : Mat 64 32) (b2 : Row 32)
    (Wd : Mat 1 1) (bd : Row 1) (n : Fin 100000) : EReal :=
  head Wd bd (refPre x src dst W1 b1 W2 b2 n)

/-- The kernel's result at row n. -/
def kerOut (x : Mat 100000 64) (src dst : Edges) (W1 : Mat 64 64) (b1 : Row 64) (W2 : Mat 64 32) (b2 : Row 32)
    (Wd : Mat 1 1) (bd : Row 1) (n : Fin 100000) : EReal :=
  head Wd bd (kerPre x src dst W1 b1 W2 b2 n)

/-- The result as the [100000, 1] array both programs return. -/
def outArr (o : Fin 100000 → EReal) : Mat 100000 1 := fun i => o ⟨(i 0).val, idx2_lt0 i⟩

end Cert.GraphConv

end
-- ==== Proof.LibRowGatherScatter.lean ====
/-
  Gathering table rows along an index list, and scatter-adding rows (or scalars) back along one, read at an index.

  A rows gather of an [N, C] table at E start indices (an [E, 1] integer array) returns at (e, k) the table's
  entry (r, k) where r is the e-th start index read as a signed integer and clamped into [0, N − 1].  A rows
  scatter-add of [E, C] updates into an [N, C] operand leaves at (n, k) the operand's entry plus the sum of the
  updates (e, k) over the edges e whose index, read signed and NOT clamped, is exactly n; the rank-one version
  scatters E scalars into N cells the same way.  All three are stated for the dimension numbers jax emits for
  x[idx] and for segment_sum, with the shapes' extents as parameters.
-/
import Idealize.ShloMosaic.PureOps.Ideal
import Idealize.ShloMosaic.Lib.ValueIdx

noncomputable section

open scoped BigOperators

namespace Cert.Lib.RowOps

open Idealize.ShloMosaic Idealize.ShloMosaic.ValueIdx

/-- The dimension numbers of a rows gather: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The rows gather at (e, k): the table at the e-th start index, read signed and clamped into [0, N − 1], column k. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
        + (rowGatherDims N E C wf).offCoord (ix2 e k) 1 = _
    rw [GatherDims.batchCoord_eq_zero _ _ _ List.not_mem_nil]
    have hstart : (rowGatherDims N E C wf).start (ix2 e k) idx 1 = 0 := by
      unfold GatherDims.start
      rw [dif_neg (show (1 : Fin 2) ∉ ([0] : List (Fin 2)) by decide)]
    have hmem : (1 : Fin 2) ∈ (rowGatherDims N E C wf).sKept :=
      (GatherDims.mem_sKept _ _).mpr ⟨(show (1 : Fin 2) ∉ ([0] : List (Fin 2)) by decide), List.not_mem_nil⟩
    have hoff : (rowGatherDims N E C wf).offCoord (ix2 e k) 1 = k.val := by
      unfold GatherDims.offCoord
      rw [dif_pos hmem]
      rfl
    rw [hstart, hoff]
    simp

/-- An update index lands at operand index i exactly when, on every axis, the signed start plus the window
    coordinate is the coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hf a
      rw [← hf]
      have := (h a).1
      simp only [Int.toNat_of_nonneg this]
    · intro hall
      funext a
      refine Fin.ext ?_
      show (d.start j idx a + (d.window j a : Int)).toNat = (i a).val
      rw [hall a]
      exact Int.toNat_natCast _
  · next h =>
    constructor
    · intro hf
      exact absurd hf (by simp)
    · intro hall
      exfalso
      apply h
      intro a
      rw [hall a]
      exact ⟨Int.natCast_nonneg _, by exact_mod_cast (i a).isLt⟩

/-- The dimension numbers of a rows scatter: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window of update (e, c) starts at the e-th index, read signed. -/
theorem rowScatter_start0 :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rowScatter_start1 : (rowScatterDims N E C wf).start (ix2 e c) idx 1 = 0 := by
  unfold ScatterDims.start
  rw [dif_neg (show (1 : Fin 2) ∉ ([0] : List (Fin 2)) by decide)]

/-- The row axis is an inserted axis: the window coordinate there is 0. -/
theorem rowScatter_window0 : (rowScatterDims N E C wf).window (ix2 e c) 0 = 0 := by
  unfold ScatterDims.window
  have h0 : (0 : Fin 2) ∉ (rowScatterDims N E C wf).sKept :=
    (show (0 : Fin 2) ∉ (List.finRange 2).filter (· ∉ ([0] : List (Fin 2))) by decide)
  rw [dif_neg h0]

/-- On the column axis the window coordinate of update (e, c) is c. -/
theorem rowScatter_window1 : (rowScatterDims N E C wf).window (ix2 e c) 1 = c.val := by
  unfold ScatterDims.window
  have h1 : (1 : Fin 2) ∈ (rowScatterDims N E C wf).sKept :=
    (show (1 : Fin 2) ∈ (List.finRange 2).filter (· ∉ ([0] : List (Fin 2))) by decide)
  rw [dif_pos h1]
  rfl

/-- An update (e, c) of the rows scatter lands at (n, k) exactly when its index, read signed, is n and c = k. -/
theorem rowScatter_resultIdx?_iff (n : Fin N) (k : Fin C) :
    (rowScatterDims N E C wf).resultIdx? (ix2 e c) idx = some (ix2 n k)
      ↔ (idx (ix2 e (0 : Fin 1))).toInt = (n.val : Int) ∧ c = k := by
  rw [resultIdx?_eq_some_iff, Fin.forall_fin_two, rowScatter_start0, rowScatter_start1, rowScatter_window0,
    rowScatter_window1]
  show (idx (ix2 e (0 : Fin 1))).toInt + ((0 : Nat) : Int) = (n.val : Int) ∧ (0 : Int) + (c.val : Int) = (k.val : Int) ↔ _
  constructor
  · rintro ⟨h0, h1⟩
    exact ⟨by simpa using h0, Fin.ext (by omega)⟩
  · rintro ⟨h0, rfl⟩
    exact ⟨by simpa using h0, by simp⟩

end Rows

/-- The rows scatter-add at (n, k): the operand there plus the updates (e, k) of the edges whose index is n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  refine congrArg (x (ix2 n k) + ·) ?_
  rw [Finset.sum_filter, Finset.sum_filter, sum_idx2]
  refine Finset.sum_congr rfl (fun e _ => ?_)
  simp only [rowScatter_resultIdx?_iff]
  by_cases hn : (idx (ix2 e (0 : Fin 1))).toInt = (n.val : Int)
  · simp [hn]
  · simp [hn]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at the e-th index, read signed. -/
theorem vecScatter_start0 :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem vecScatter_window0 : (vecScatterDims N E wf).window (ix1 e) 0 = 0 := by
  unfold ScatterDims.window
  have h0 : (0 : Fin 1) ∉ (vecScatterDims N E wf).sKept :=
    (show (0 : Fin 1) ∉ (List.finRange 1).filter (· ∉ ([0] : List (Fin 1))) by decide)
  rw [dif_neg h0]

/-- An update e of the scalar scatter lands at n exactly when its index, read signed, is n. -/
theorem vecScatter_resultIdx?_iff (n : Fin N) :
    (vecScatterDims N E wf).resultIdx? (ix1 e) idx = some (ix1 n)
      ↔ (idx (ix2 e (0 : Fin 1))).toInt = (n.val : Int) := by
  rw [resultIdx?_eq_some_iff, Fin.forall_fin_one, vecScatter_start0, vecScatter_window0]
  show (idx (ix2 e (0 : Fin 1))).toInt + ((0 : Nat) : Int) = (n.val : Int) ↔ _
  simp

end Vec

/-- The scalar scatter-add at n: the operand there plus the updates of the edges whose index is n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  rw [Finset.sum_filter, Finset.sum_filter, sum_idx1]
  refine Finset.sum_congr rfl (fun e _ => ?_)
  simp only [vecScatter_resultIdx?_iff]

end Cert.Lib.RowOps

end
-- ==== Proof.HostStages.lean ====
/-
  The host operations around the two kernels, as functions of their operands, read at an index.

  Before each kernel the host gathers table rows along the edges' source indices (a negative index wrapped once by
  the row count, then clamped) and sums them at the edges' destination rows; before the first kernel it also counts
  the edges landing on each row.  Read at an index these are the specification's agg and segSum: the aggregated
  table at (n, k) is 0 + the sum over the edges landing on n of the gathered row's entry k, and the count at n is
  0 + the sum of ones over those edges, as a column.
-/
import proofs.«156890_j18442589569957_2_alg».proof.KernelIdeal
import proofs.«156890_j18442589569957_2_alg».proof.Proof.Gen.KernelIdeal
import proofs.«156890_j18442589569957_2_alg».proof.Proof.Spec
import proofs.«156890_j18442589569957_2_alg».proof.Proof.LibRowGatherScatter
import proofs.«156890_j18442589569957_2_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KerValue

open Cert.KernelIdeal Cert.KernelIdeal.Gen Cert.GraphConv Cert.Lib.RowOps Cert.Lib.Layout
open Idealize.ShloMosaic Idealize.ShloMosaic.ValueIdx

/-- The [E, 1] array of start indices of the gathers: the source indices, a negative one wrapped by the row count. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The [E, 1] array of scatter indices: the destination indices. -/
def dstIdx (dst : IVec S1600000 32) : IVec S1600000x1 32 :=
  broadcastInDim S1600000x1 ![0] bcast_S1600000_S1600000x1_0 dst

/-- The degree column the host computes: ones summed at the destination rows, as a [100000, 1] array. -/
def hostDeg (dst : IVec S1600000 32) : FVec Ideal S100000x1 .f32 :=
  shapeCast S100000x1
    (Host.scatterAdd (F := Ideal) scatter_S100000_S1600000x1_S1600000_n_0_0_1
      (broadcastInDim S100000 ![] bcast_S_S100000 (constant (F := Ideal) S_ .f32 0x00000000#32)) (dstIdx dst)
      (broadcastInDim S1600000 ![] bcast_S_S1600000 (constant (F := Ideal) S_ .f32 0x3F800000#32)))
    shapeCasts_S100000_S100000x1

/-- The 64-column aggregation: rows of x gathered along the edges and summed at their destinations. -/
def hostAgg64 (x : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstIdx dst)
    (Host.gather gather_S100000x64_S1600000x1_S1600000x64_1_0_n_n_0_1_164 x (srcIdx src))

/-- The 32-column aggregation: rows of y gathered along the edges and summed at their destinations. -/
def hostAgg32 (y : FVec Ideal S100000x32 .f32) (src dst : IVec S1600000 32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32)) (dstIdx dst)
    (Host.gather gather_S100000x32_S1600000x1_S1600000x32_1_0_n_n_0_1_132 y (srcIdx src))

/-- A scalar broadcast read anywhere is the scalar. -/
theorem bcast_scalar_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- The start index of edge e: its wrapped source index. -/
theorem srcIdx_apply (src : IVec S1600000 32) (e : Fin 1600000) : srcIdx src (ix2 e (0 : Fin 1)) = wrapped src e := by
  unfold srcIdx
  refine (broadcastInDim_apply _ bcast_S1600000_S1600000x1_0 _ (ix2 e (0 : Fin 1)) (ix1 e) (fun a => match a with
    | ⟨0, _⟩ => by show e.val = if (1600000 : Nat) = 1 then 0 else e.val; rw [if_neg (by decide)])).trans ?_
  rw [select_apply]
  show Scalar.select (IntOp.cmpi .slt (src (ix1 e)) (broadcastInDim S1600000 ![] bcast_S_S1600000 (constantI S_ 32 0#32) (ix1 e)))
      (IntOp.addi (src (ix1 e)) (broadcastInDim S1600000 ![] bcast_S_S1600000 (constantI S_ 32 100000#32) (ix1 e))) (src (ix1 e)) = _
  rw [bcast_scalar_apply, bcast_scalar_apply]
  rfl

/-- The scatter index of edge e: its destination index. -/
theorem dstIdx_apply (dst : IVec S1600000 32) (e : Fin 1600000) : dstIdx dst (ix2 e (0 : Fin 1)) = dst (ix1 e) := by
  unfold dstIdx
  exact broadcastInDim_apply _ bcast_S1600000_S1600000x1_0 _ (ix2 e (0 : Fin 1)) (ix1 e) (fun a => match a with
    | ⟨0, _⟩ => by show e.val = if (1600000 : Nat) = 1 then 0 else e.val; rw [if_neg (by decide)])

/-! The printed dimension numbers are the rows gather's, the rows scatter's and the scalar scatter's. -/

theorem gather64_eq : gather_S100000x64_S1600000x1_S1600000x64_1_0_n_n_0_1_164
    = rowGatherDims 100000 1600000 64 Facts₀.gather_S100000x64_S1600000x1_S1600000x64_1_0_n_n_0_1_164_wf := rfl
theorem gather32_eq : gather_S100000x32_S1600000x1_S1600000x32_1_0_n_n_0_1_132
    = rowGatherDims 100000 1600000 32 Facts₀.gather_S100000x32_S1600000x1_S1600000x32_1_0_n_n_0_1_132_wf := rfl
theorem scatter64_eq : scatter_S100000x64_S1600000x1_S1600000x64_1_0_0_1
    = rowScatterDims 100000 1600000 64 Facts₀.scatter_S100000x64_S1600000x1_S1600000x64_1_0_0_1_wf := rfl
theorem scatter32_eq : scatter_S100000x32_S1600000x1_S1600000x32_1_0_0_1
    = rowScatterDims 100000 1600000 32 Facts₀.scatter_S100000x32_S1600000x1_S1600000x32_1_0_0_1_wf := rfl
theorem scatterVec_eq : scatter_S100000_S1600000x1_S1600000_n_0_0_1
    = vecScatterDims 100000 1600000 Facts₀.scatter_S100000_S1600000x1_S1600000_n_0_0_1_wf := rfl

/-- At the extended reals the host's accumulating scatter is the exact one. -/
theorem scatterAdd_exact {s si u : Shape} {w : Nat} {φ : FTy} (d : ScatterDims s si u) (x : FVec Ideal s φ) (idx : IVec si w)
    (upd : FVec Ideal u φ) : Host.scatterAdd d x idx upd = Ideal.hostScatterAdd d x idx upd := by
  rw [Host.scatterAdd, Ideal.hostScatterAdd_def]

/-- The edges whose scatter index is n are the edges landing on n. -/
theorem filter_lands (dst : IVec S1600000 32) (n : Fin 100000) (f : Fin 1600000 → EReal) :
    (∑ e ∈ Finset.univ.filter (fun e : Fin 1600000 => (dstIdx dst (ix2 e (0 : Fin 1))).toInt = (n.val : Int)), f e)
      = segSum dst f n := by
  rw [segSum]
  refine Finset.sum_congr (Finset.filter_congr fun e _ => ?_) fun _ _ => rfl
  rw [dstIdx_apply, lands]

/-- The degree column at row n: 0 + the number of edges landing on n. -/
theorem hostDeg_apply (dst : IVec S1600000 32) (n : Fin 100000) (u : Fin 1) :
    hostDeg dst (ix2 n u) = Ideal.ofBits .f32 0x00000000#32 + segSum dst (fun _ => Ideal.ofBits .f32 0x3F800000#32) n := by
  rw [hostDeg, shapeCast_a_a1_apply, scatterAdd_exact, scatterVec_eq, vecScatterAdd_apply, bcast_scalar_apply, filter_lands]
  refine congrArg₂ (· + ·) rfl (congrArg (fun f => segSum dst f n) (funext fun e => ?_))
  rw [bcast_scalar_apply]; rfl

/-- The 64-column aggregation at (n, d): 0 + the sum over the edges landing on n of x at the gathered row. -/
theorem hostAgg64_apply (x : FVec Ideal S100000x64 .f32) (src dst : IVec S1600000 32) (n : Fin 100000) (d : Fin 64) :
    hostAgg64 x src dst (ix2 n d)
      = Ideal.ofBits .f32 0x00000000#32 + segSum dst (fun e => x (ix2 (srcRow src e) d)) n := by
  rw [hostAgg64, scatterAdd_exact, scatter64_eq, rowScatterAdd_apply, bcast_scalar_apply, filter_lands]
  refine congrArg₂ (· + ·) rfl (congrArg (fun f => segSum dst f n) (funext fun e => ?_))
  rw [gather64_eq, rowGather_apply (by decide)]
  refine congrArg x (congrArg (fun r => ix2 r d) (Fin.ext ?_))
  show min (srcIdx src (ix2 e (0 : Fin 1))).toInt.toNat (100000 - 1) = min (wrapped src e).toInt.toNat (100000 - 1)
  rw [srcIdx_apply]

/-- The 32-column aggregation at (n, k): 0 + the sum over the edges landing on n of y at the gathered row. -/
theorem hostAgg32_apply (y : FVec Ideal S100000x32 .f32) (src dst : IVec S1600000 32) (n : Fin 100000) (k : Fin 32) :
    hostAgg32 y src dst (ix2 n k)
      = Ideal.ofBits .f32 0x00000000#32 + segSum dst (fun e => y (ix2 (srcRow src e) k)) n := by
  rw [hostAgg32, scatterAdd_exact, scatter32_eq, rowScatterAdd_apply, bcast_scalar_apply, filter_lands]
  refine congrArg₂ (· + ·) rfl (congrArg (fun f => segSum dst f n) (funext fun e => ?_))
  rw [gather32_eq, rowGather_apply (by decide)]
  refine congrArg y (congrArg (fun r => ix2 r k) (Fin.ext ?_))
  show min (srcIdx src (ix2 e (0 : Fin 1))).toInt.toNat (100000 - 1) = min (wrapped src e).toInt.toNat (100000 - 1)
  rw [srcIdx_apply]

end Cert.KernelIdeal.KerValue

end
-- ==== Proof.KerBoundary.lean ====
/-
  What the buffers hold at the segment boundaries.

  Entering the first kernel, its aggregated-features array is the 64-column aggregation of the node features, its
  degree column the host's count, its bias row the first bias reshaped, and the two weight matrices are the
  arguments.  Leaving it, the output array is the first kernel's function of those (its 50 tiles cover the array) and
  the degree column is unchanged.  Entering the second kernel, its aggregated array is the 32-column aggregation of
  the first kernel's output, the bias row and the 1×1 bias are the arguments reshaped, the 1×1 weight is the
  argument.  Leaving it, the result buffer is the second kernel's function of those.
-/
import proofs.«156890_j18442589569957_2_alg».proof.Proof.Gen.KernelIdeal.Frame
import proofs.«156890_j18442589569957_2_alg».proof.Proof.KerArray0
import proofs.«156890_j18442589569957_2_alg».proof.Proof.KerArray1
import proofs.«156890_j18442589569957_2_alg».proof.Proof.HostStages
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## Entering the first kernel -/

theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results

/-- The aggregated features the first kernel reads. -/
theorem V1_agg : V1 m ρ c main_v14
    = hostAgg64 (m ((c : Thread nD τ).loc main_arg0)) (m ((c : Thread nD τ).loc main_arg1)) (m ((c : Thread nD τ).loc main_arg2)) := by
  show StableHlo.after hostOps0 (W0 m ρ c) (Proc.devRef .tc main_v14) = _
  after_results
  rfl

/-- The degree column the first kernel reads. -/
theorem V1_deg : V1 m ρ c main_v4 = hostDeg (m ((c : Thread nD τ).loc main_arg2)) := by
  show StableHlo.after hostOps0 (W0 m ρ c) (Proc.devRef .tc main_v4) = _
  after_results
  rfl

/-- The bias row the first kernel reads. -/
theorem V1_b1 : V1 m ρ c main_v15 = shapeCast S1x64 (m ((c : Thread nD τ).loc main_arg4)) shapeCasts_S64_S1x64 := by
  show StableHlo.after hostOps0 (W0 m ρ c) (Proc.devRef .tc main_v15) = _
  after_results
  rfl

/-! ## Leaving the first kernel -/

/-- The first kernel's output array. -/
theorem W2_out : W2 m ρ c (Proc.devRef .tc main_v16)
    = tileOut0 (hostAgg64 (m ((c : Thread nD τ).loc main_arg0)) (m ((c : Thread nD τ).loc main_arg1)) (m ((c : Thread nD τ).loc main_arg2)))
        (hostDeg (m ((c : Thread nD τ).loc main_arg2))) (m ((c : Thread nD τ).loc main_arg3))
        (shapeCast S1x64 (m ((c : Thread nD τ).loc main_arg4)) shapeCasts_S64_S1x64) (m ((c : Thread nD τ).loc main_arg5)) := by
  refine (W2_arr m ρ c 5).trans ((array0 (V1 m ρ) c).trans ?_)
  rw [V1_agg, V1_deg, V1_b1]
  show tileOut0 _ _ (W1 m ρ c (Proc.devRef .tc main_arg3)) _ (W1 m ρ c (Proc.devRef .tc main_arg5)) = _
  rw [W1_arg3, W1_arg5]

/-- The degree column is an input of the first kernel: it leaves it as it found it. -/
theorem W2_deg : W2 m ρ c (Proc.devRef .tc main_v4) = hostDeg (m ((c : Thread nD τ).loc main_arg2)) :=
  (W2_arr m ρ c 1).trans ((((dat0 (V1 m ρ) c).arrAt_in 1 rfl _).trans (A_eq0 (V1 m ρ) c 1)).trans (V1_deg m ρ c))

theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

/-! ## Entering the second kernel -/

/-- The aggregated projections the second kernel reads. -/
theorem V3_agg : V3 m ρ c main_v26
    = hostAgg32 (W2 m ρ c (Proc.devRef .tc main_v16)) (W2 m ρ c (Proc.devRef .tc main_arg1)) (W2 m ρ c (Proc.devRef .tc main_arg2)) := by
  show StableHlo.after hostOps1 (W2 m ρ c) (Proc.devRef .tc main_v26) = _
  after_results
  rfl

theorem V3_deg : V3 m ρ c main_v4 = W2 m ρ c (Proc.devRef .tc main_v4) := by
  show StableHlo.after hostOps1 (W2 m ρ c) (Proc.devRef .tc main_v4) = _
  after_results
theorem V3_b2 : V3 m ρ c main_v27 = shapeCast S1x32 (W2 m ρ c (Proc.devRef .tc main_arg6)) shapeCasts_S32_S1x32 := by
  show StableHlo.after hostOps1 (W2 m ρ c) (Proc.devRef .tc main_v27) = _
  after_results
  rfl
theorem V3_wd : V3 m ρ c main_arg7 = W2 m ρ c (Proc.devRef .tc main_arg7) := by
  show StableHlo.after hostOps1 (W2 m ρ c) (Proc.devRef .tc main_arg7) = _
  after_results
theorem V3_bd : V3 m ρ c main_v28 = shapeCast S1x1 (W2 m ρ c (Proc.devRef .tc main_arg8)) shapeCasts_S1_S1x1 := by
  show StableHlo.after hostOps1 (W2 m ρ c) (Proc.devRef .tc main_v28) = _
  after_results
  rfl

/-! ## Leaving the second kernel -/

/-- The result buffer at the last boundary, as one function of the nine arguments. -/
theorem W4_result : W4 m ρ c (Proc.devRef .tc main_v29)
    = tileOut1
        (hostAgg32
          (tileOut0 (hostAgg64 (m ((c : Thread nD τ).loc main_arg0)) (m ((c : Thread nD τ).loc main_arg1)) (m ((c : Thread nD τ).loc main_arg2)))
            (hostDeg (m ((c : Thread nD τ).loc main_arg2))) (m ((c : Thread nD τ).loc main_arg3))
            (shapeCast S1x64 (m ((c : Thread nD τ).loc main_arg4)) shapeCasts_S64_S1x64) (m ((c : Thread nD τ).loc main_arg5)))
          (m ((c : Thread nD τ).loc main_arg1)) (m ((c : Thread nD τ).loc main_arg2)))
        (hostDeg (m ((c : Thread nD τ).loc main_arg2)))
        (shapeCast S1x32 (m ((c : Thread nD τ).loc main_arg6)) shapeCasts_S32_S1x32)
        (m ((c : Thread nD τ).loc main_arg7))
        (shapeCast S1x1 (m ((c : Thread nD τ).loc main_arg8)) shapeCasts_S1_S1x1) := by
  refine (W4_arr m ρ c 5).trans ((array1 (V3 m ρ) c).trans ?_)
  rw [V3_agg, V3_deg, V3_b2, V3_wd, V3_bd, W2_out, W2_deg, W2_arg1, W2_arg2, W2_arg6, W2_arg7, W2_arg8]

end Cert.KernelIdeal.KerValue

end
-- ==== Proof.Consts.lean ====
/-
  The float words both programs spell, as the extended reals they denote exactly: 1.0 is 1 and 32.0 is 32 (0.0 is 0
  by the library).  Stated once, so that no other module unfolds a float word.
-/
import Idealize.ShloMosaic.PureOps.Ideal

noncomputable section

namespace Cert.Consts

open Idealize.ShloMosaic

/-- The word of 1.0 denotes 1. -/
theorem ofBits_one_f32 : Ideal.ofBits .f32 0x3F800000#32 = 1 := by
  simp [Ideal.ofBits, Ideal.ieee, -EReal.coe_mul]; norm_num

/-- The word of 32.0 denotes 32. -/
theorem ofBits_32_f32 : Ideal.ofBits .f32 0x42000000#32 = 32 := by
  simp [Ideal.ofBits, Ideal.ieee, -EReal.coe_mul]; norm_num; rfl

end Cert.Consts

end
-- ==== Proof.KerResult.lean ====
/-
  The kernel computes kerOut.

  Put together — the host's aggregations read at an index, the first kernel's array, the second aggregation over that
  array, the second kernel's array — the result buffer holds, at row n, the kernel's arrangement of the graph
  convolution: kerOut at n.  The float words 0.0, 1.0 and 32.0 denote 0, 1 and 32; the reshaped bias rows read at
  (0, j) are the biases at j.
-/
import proofs.«156890_j18442589569957_2_alg».proof.Proof.Spec
import proofs.«156890_j18442589569957_2_alg».proof.Proof.Consts
import proofs.«156890_j18442589569957_2_alg».proof.Proof.HostStages
import proofs.«156890_j18442589569957_2_alg».proof.Proof.KerArray0
import proofs.«156890_j18442589569957_2_alg».proof.Proof.KerArray1

noncomputable section

open scoped BigOperators

namespace Cert.KernelIdeal.KerValue

open Cert.KernelIdeal Cert.KernelIdeal.Gen Cert.GraphConv Cert.Consts Cert.Lib.Layout
open Idealize.ShloMosaic Idealize.ShloMosaic.ValueIdx

variable (x : Mat 100000 64) (src dst : Edges) (W1 : Mat 64 64) (b1 : Row 64) (W2 : Mat 64 32) (b2 : Row 32)
  (Wd : Mat 1 1) (bd : Row 1)

/-- The host's degree column, raised to at least one, is the specification's degree. -/
theorem deg_eq (n : Fin 100000) :
    max (hostDeg dst (ix2 n (0 : Fin 1))) (Ideal.ofBits .f32 0x3F800000#32) = degree dst n := by
  rw [hostDeg_apply, ofBits_one_f32, Ideal.ofBits_zero_f32, degree]

/-- The host's 64-column aggregation is the specification's agg of the columns of x. -/
theorem agg64_eq (n : Fin 100000) (d : Fin 64) :
    hostAgg64 x src dst (ix2 n d) = agg src dst (fun r => x (ix2 r d)) n := by
  rw [hostAgg64_apply, Ideal.ofBits_zero_f32, agg]

/-- The host's 32-column aggregation is the specification's agg of the columns of its operand. -/
theorem agg32_eq (y : FVec Ideal S100000x32 .f32) (n : Fin 100000) (k : Fin 32) :
    hostAgg32 y src dst (ix2 n k) = agg src dst (fun r => y (ix2 r k)) n := by
  rw [hostAgg32_apply, Ideal.ofBits_zero_f32, agg]

/-- The first kernel's array is the projected hidden layer. -/
theorem tileOut0_eq (r : Fin 100000) (k : Fin 32) :
    tileOut0 (hostAgg64 x src dst) (hostDeg dst) W1 (shapeCast S1x64 b1 shapeCasts_S64_S1x64) W2 (ix2 r k)
      = proj x src dst W1 b1 W2 r k := by
  have hr : (⟨(ix2 r k (0 : Fin 2)).val, idx2_lt0 (ix2 r k)⟩ : Fin 100000) = r := Fin.ext rfl
  have hk : (⟨(ix2 r k (1 : Fin 2)).val, idx2_lt1 (ix2 r k)⟩ : Fin 32) = k := Fin.ext rfl
  rw [tileOut0, hr, hk, proj]
  simp only [deg_eq, agg64_eq, shapeCast_a_1a_apply, Ideal.ofBits_zero_f32, Cert.GraphConv.hidden]

/-- The second kernel's array, over the aggregation of the first kernel's array, is kerOut. -/
theorem result_eq :
    tileOut1
        (hostAgg32 (tileOut0 (hostAgg64 x src dst) (hostDeg dst) W1 (shapeCast S1x64 b1 shapeCasts_S64_S1x64) W2) src dst)
        (hostDeg dst) (shapeCast S1x32 b2 shapeCasts_S32_S1x32) Wd (shapeCast S1x1 bd shapeCasts_S1_S1x1)
      = outArr (kerOut x src dst W1 b1 W2 b2 Wd bd) := by
  funext i
  obtain ⟨n, u, rfl⟩ : ∃ (n : Fin 100000) (u : Fin 1), i = ix2 n u := ⟨i 0, i 1, eq_ix2 i⟩
  have hn : (⟨(ix2 n u (0 : Fin 2)).val, idx2_lt0 (ix2 n u)⟩ : Fin 100000) = n := Fin.ext rfl
  rw [tileOut1, outArr, hn, kerOut, head]
  simp only [deg_eq, agg32_eq, tileOut0_eq, shapeCast_a_1a_apply, ofBits_32_f32, Ideal.ofBits_zero_f32, kerPre]

end Cert.KernelIdeal.KerValue

end
-- ==== Proof.RefValue.lean ====
/-
  The reference computes refOut.

  Read off the reference's run one operation at a time: the two gathers read the table row an edge's source index
  names (wrapped, clamped), the four scatter-adds sum their updates over the edges landing on a row, every other
  operation acts entry by entry or is a finite sum over one axis.  Put together, the reference's result at row n is
  refOut at n: layer one, the second aggregation of the 64 hidden columns divided by the degree, the product with W2,
  bias and relu, the mean over the 32 columns, the 1×1 dense layer, and 1 / (1 + exp (−z)), which is the logistic
  function.
-/
import proofs.«156890_j18442589569957_2_alg».proof.Proof.Gen.ReferenceIdeal.Read
import proofs.«156890_j18442589569957_2_alg».proof.Proof.Spec
import proofs.«156890_j18442589569957_2_alg».proof.Proof.LibRowGatherScatter
import proofs.«156890_j18442589569957_2_alg».proof.Proof.Consts
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.GraphConv Cert.Lib.RowOps
open Idealize.ShloMosaic Idealize.ShloMosaic.ValueIdx Cert.Consts

section Layers

variable (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x32, .f32⟩ : BufTy).Contents (Elt Ideal)) (x6 : (⟨S32, .f32⟩ : BufTy).Contents (Elt Ideal))
    (x7 : (⟨S1x1, .f32⟩ : BufTy).Contents (Elt Ideal)) (x8 : (⟨S1, .f32⟩ : BufTy).Contents (Elt Ideal))

/-! ## The index arrays -/

/-- The column of source indices the first gather reads: edge e's wrapped source index. -/
theorem v5_at (e : Fin 1600000) : val_main_v5 (F := Ideal) x1 (ix2 e (0 : Fin 1)) = wrapped x1 e := by
  rw [val_main_v5_apply]
  have h : idx_main_v5 (ix2 e (0 : Fin 1)) = ix1 e := funext fun a => Fin.ext (by match a with | ⟨0, _⟩ => rfl)
  rw [h, val_main_v4_apply, val_main_v1_apply, val_main_v3_apply, val_main_v0_apply, val_main_v2_apply]
  rfl

/-- The second gather reads the same column. -/
theorem v29_at (e : Fin 1600000) : val_main_v29 (F := Ideal) x1 (ix2 e (0 : Fin 1)) = wrapped x1 e := by
  rw [val_main_v29_apply]
  have h : idx_main_v29 (ix2 e (0 : Fin 1)) = ix1 e := funext fun a => Fin.ext (by match a with | ⟨0, _⟩ => rfl)
  rw [h, val_main_v28_apply, val_main_v25_apply, val_main_v27_apply, val_main_v24_apply, val_main_v26_apply]
  rfl

/-- The four columns of destination indices are the destination array. -/
theorem v8_at (e : Fin 1600000) : val_main_v8 (F := Ideal) x2 (ix2 e (0 : Fin 1)) = x2 (ix1 e) := by
  rw [val_main_v8_apply]
  exact congrArg x2 (funext fun a => Fin.ext (by match a with | ⟨0, _⟩ => rfl))
theorem v12_at (e : Fin 1600000) : val_main_v12 (F := Ideal) x2 (ix2 e (0 : Fin 1)) = x2 (ix1 e) := by
  rw [val_main_v12_apply]
  exact congrArg x2 (funext fun a => Fin.ext (by match a with | ⟨0, _⟩ => rfl))
theorem v32_at (e : Fin 1600000) : val_main_v32 (F := Ideal) x2 (ix2 e (0 : Fin 1)) = x2 (ix1 e) := by
  rw [val_main_v32_apply]
  exact congrArg x2 (funext fun a => Fin.ext (by match a with | ⟨0, _⟩ => rfl))
theorem v36_at (e : Fin 1600000) : val_main_v36 (F := Ideal) x2 (ix2 e (0 : Fin 1)) = x2 (ix1 e) := by
  rw [val_main_v36_apply]
  exact congrArg x2 (funext fun a => Fin.ext (by match a with | ⟨0, _⟩ => rfl))

/-! ## The program's dimension records are the rows gather's and the two scatters' -/

theorem gatherDims_eq : gather_S100000x64_S1600000x1_S1600000x64_1_0_n_n_0_1_164
    = rowGatherDims 100000 1600000 64 Facts₀.gather_S100000x64_S1600000x1_S1600000x64_1_0_n_n_0_1_164_wf := rfl
theorem rowScatterDims_eq : scatter_S100000x64_S1600000x1_S1600000x64_1_0_0_1
    = rowScatterDims 100000 1600000 64 Facts₀.scatter_S100000x64_S1600000x1_S1600000x64_1_0_0_1_wf := rfl
theorem vecScatterDims_eq : scatter_S100000_S1600000x1_S1600000_n_0_0_1
    = vecScatterDims 100000 1600000 Facts₀.scatter_S100000_S1600000x1_S1600000_n_0_0_1_wf := rfl

/-- At the extended reals the host's scatter-add is the exact one. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := by
  rw [Host.scatterAdd, Ideal.hostScatterAdd_def]

/-- A sum over the edges whose index, read from a column that is the destination array, is n, is the sum over the
    edges landing on n. -/
theorem sum_lands (idx : IVec ⟨2, ![1600000, 1]⟩ 32) (dst : Edges) (h : ∀ e : Fin 1600000, idx (ix2 e (0 : Fin 1)) = dst (ix1 e))
    (f g : Fin 1600000 → EReal) (hfg : ∀ e, f e = g e) (n : Fin 100000) :
    ∑ e ∈ Finset.univ.filter (fun e : Fin 1600000 => (idx (ix2 e (0 : Fin 1))).toInt = (n.val : Int)), f e
      = segSum dst g n := by
  rw [segSum]
  exact Finset.sum_congr (Finset.filter_congr fun e _ => by rw [h e]; exact Iff.rfl) fun e _ => hfg e

/-! ## The degree -/

theorem v10_at (e : Fin 1600000) : val_main_v10 (F := Ideal) (ix1 e) = 1 := by
  rw [val_main_v10_apply, val_main_cst_1_apply, Ideal.ofBits_def, ofBits_one_f32]
theorem v34_at (e : Fin 1600000) : val_main_v34 (F := Ideal) (ix1 e) = 1 := by
  rw [val_main_v34_apply, val_main_cst_7_apply, Ideal.ofBits_def, ofBits_one_f32]

/-- The scalar scatter-add of ones: zero plus the number of edges landing on row n. -/
theorem v13_at (n : Fin 100000) : val_main_v13 (F := Ideal) x2 (ix1 n) = 0 + segSum x2 (fun _ => 1) n := by
  rw [val_main_v13, scatterAdd_ideal, vecScatterDims_eq, vecScatterAdd_apply, val_main_v11_apply, val_main_cst_2_apply,
    Ideal.ofBits_def, Ideal.ofBits_zero_f32,
    sum_lands (val_main_v12 (F := Ideal) x2) x2 (v12_at x2) _ (fun _ => 1) v10_at n]
theorem v37_at (n : Fin 100000) : val_main_v37 (F := Ideal) x2 (ix1 n) = 0 + segSum x2 (fun _ => 1) n := by
  rw [val_main_v37, scatterAdd_ideal, vecScatterDims_eq, vecScatterAdd_apply, val_main_v35_apply, val_main_cst_8_apply,
    Ideal.ofBits_def, Ideal.ofBits_zero_f32,
    sum_lands (val_main_v36 (F := Ideal) x2) x2 (v36_at x2) _ (fun _ => 1) v34_at n]

/-- The degree of row n: the count raised to at least one. -/
theorem v15_at (n : Fin 100000) : val_main_v15 (F := Ideal) x2 (ix1 n) = degree x2 n := by
  rw [val_main_v15_apply, v13_at, val_main_v14_apply, val_main_cst_3_apply, Ideal.ofBits_def, ofBits_one_f32,
    Ideal.maximumf_def, degree]
theorem v39_at (n : Fin 100000) : val_main_v39 (F := Ideal) x2 (ix1 n) = degree x2 n := by
  rw [val_main_v39_apply, v37_at, val_main_v38_apply, val_main_cst_9_apply, Ideal.ofBits_def, ofBits_one_f32,
    Ideal.maximumf_def, degree]

/-- The degree broadcast along the 64 columns. -/
theorem v17_at (n : Fin 100000) (d : Fin 64) : val_main_v17 (F := Ideal) x2 (ix2 n d) = degree x2 n := by
  have h1 : idx_main_v17 (ix2 n d) = ix2 n (0 : Fin 1) :=
    funext fun a => Fin.ext (by match a with | ⟨0, _⟩ => rfl | ⟨1, _⟩ => rfl)
  have h2 : idx_main_v16 (ix2 n (0 : Fin 1)) = ix1 n := funext fun a => Fin.ext (by match a with | ⟨0, _⟩ => rfl)
  rw [val_main_v17_apply, h1, val_main_v16_apply, h2, v15_at]
theorem v41_at (n : Fin 100000) (d : Fin 64) : val_main_v41 (F := Ideal) x2 (ix2 n d) = degree x2 n := by
  have h1 : idx_main_v41 (ix2 n d) = ix2 n (0 : Fin 1) :=
    funext fun a => Fin.ext (by match a with | ⟨0, _⟩ => rfl | ⟨1, _⟩ => rfl)
  have h2 : idx_main_v40 (ix2 n (0 : Fin 1)) = ix1 n := funext fun a => Fin.ext (by match a with | ⟨0, _⟩ => rfl)
  rw [val_main_v41_apply, h1, val_main_v40_apply, h2, v39_at]

/-! ## Layer one -/

/-- The first gather: edge e reads the table row its wrapped, clamped source index names. -/
theorem v6_at (e : Fin 1600000) (d : Fin 64) : val_main_v6 (F := Ideal) x0 x1 (ix2 e d) = x0 (ix2 (srcRow x1 e) d) := by
  rw [val_main_v6, gatherDims_eq, rowGather_apply (by norm_num)]
  simp only [v5_at]
  rfl

theorem v7_at (n : Fin 100000) (d : Fin 64) : val_main_v7 (F := Ideal) (ix2 n d) = 0 := by
  rw [val_main_v7_apply, val_main_cst_apply, Ideal.ofBits_def, Ideal.ofBits_zero_f32]

/-- The first rows scatter-add: column d of the table aggregated along the edges. -/
theorem v9_at (n : Fin 100000) (d : Fin 64) :
    val_main_v9 (F := Ideal) x0 x1 x2 (ix2 n d) = agg x1 x2 (fun r => x0 (ix2 r d)) n := by
  rw [val_main_v9, scatterAdd_ideal, rowScatterDims_eq, rowScatterAdd_apply, v7_at,
    sum_lands (val_main_v8 (F := Ideal) x2) x2 (v8_at x2) _ (fun e => x0 (ix2 (srcRow x1 e) d)) (fun e => v6_at x0 x1 e d) n, agg]

/-- The aggregate divided by the degree. -/
theorem v18_at (n : Fin 100000) (d : Fin 64) :
    val_main_v18 (F := Ideal) x0 x1 x2 (ix2 n d) = Ideal.div (agg x1 x2 (fun r => x0 (ix2 r d)) n) (degree x2 n) := by
  rw [val_main_v18_apply, v9_at, v17_at, Ideal.hostDivf_def]

theorem v21_at (n : Fin 100000) (j : Fin 64) : val_main_v21 (F := Ideal) x4 (ix2 n j) = x4 (ix1 j) := by
  have h1 : idx_main_v21 (ix2 n j) = ix2 (0 : Fin 1) j :=
    funext fun a => Fin.ext (by match a with | ⟨0, _⟩ => rfl | ⟨1, _⟩ => rfl)
  have h2 : idx_main_v20 (ix2 (0 : Fin 1) j) = ix1 j := funext fun a => Fin.ext (by match a with | ⟨0, _⟩ => rfl)
  rw [val_main_v21_apply, h1, val_main_v20_apply, h2]

theorem call0_v0_at (n : Fin 100000) (j : Fin 64) : val_main_call0_v0 (F := Ideal) (ix2 n j) = 0 := by
  rw [val_main_call0_v0_apply, val_main_call0_cst_apply, Ideal.ofBits_def, Ideal.ofBits_zero_f32]

/-- The first dense layer's product, a sum over the 64 columns. -/
theorem v19_at (n : Fin 100000) (j : Fin 64) :
    val_main_v19 (F := Ideal) x0 x1 x2 x3 (ix2 n j)
      = ∑ d : Fin 64, Ideal.div (agg x1 x2 (fun r => x0 (ix2 r d)) n) (degree x2 n) * x3 (ix2 d j) := by
  rw [val_main_v19_apply]
  refine Finset.sum_congr rfl fun d _ => ?_
  have hl : lidx_main_v19 (ix2 n j) d = ix2 n d :=
    funext fun a => Fin.ext (by match a with | ⟨0, _⟩ => rfl | ⟨1, _⟩ => rfl)
  have hr : ridx_main_v19 (ix2 n j) d = ix2 d j :=
    funext fun a => Fin.ext (by match a with | ⟨0, _⟩ => rfl | ⟨1, _⟩ => rfl)
  rw [hl, hr, v18_at]

/-- Layer one at row n, column j. -/
theorem v23_at (n : Fin 100000) (j : Fin 64) :
    val_main_v23 (F := Ideal) x0 x1 x2 x3 x4 (ix2 n j) = GraphConv.hidden x0 x1 x2 x3 x4 n j := by
  rw [val_main_v23_apply, val_main_v22_apply, v19_at, v21_at, call0_v0_at, Ideal.addf_def, Ideal.maximumf_def, GraphConv.hidden]

/-! ## Layer two -/

/-- The second gather reads the hidden row an edge's source index names. -/
theorem v30_at (e : Fin 1600000) (j : Fin 64) :
    val_main_v30 (F := Ideal) x0 x1 x2 x3 x4 (ix2 e j) = GraphConv.hidden x0 x1 x2 x3 x4 (srcRow x1 e) j := by
  rw [val_main_v30, gatherDims_eq, rowGather_apply (by norm_num)]
  simp only [v29_at]
  exact v23_at x0 x1 x2 x3 x4 (srcRow x1 e) j

theorem v31_at (n : Fin 100000) (j : Fin 64) : val_main_v31 (F := Ideal) (ix2 n j) = 0 := by
  rw [val_main_v31_apply, val_main_cst_6_apply, Ideal.ofBits_def, Ideal.ofBits_zero_f32]

/-- The second rows scatter-add: hidden column j aggregated along the edges. -/
theorem v33_at (n : Fin 100000) (j : Fin 64) :
    val_main_v33 (F := Ideal) x0 x1 x2 x3 x4 (ix2 n j) = agg x1 x2 (fun r => GraphConv.hidden x0 x1 x2 x3 x4 r j) n := by
  rw [val_main_v33, scatterAdd_ideal, rowScatterDims_eq, rowScatterAdd_apply, v31_at,
    sum_lands (val_main_v32 (F := Ideal) x2) x2 (v32_at x2) _ (fun e => GraphConv.hidden x0 x1 x2 x3 x4 (srcRow x1 e) j)
      (fun e => v30_at x0 x1 x2 x3 x4 e j) n, agg]

theorem v42_at (n : Fin 100000) (j : Fin 64) :
    val_main_v42 (F := Ideal) x0 x1 x2 x3 x4 (ix2 n j)
      = Ideal.div (agg x1 x2 (fun r => GraphConv.hidden x0 x1 x2 x3 x4 r j) n) (degree x2 n) := by
  rw [val_main_v42_apply, v33_at, v41_at, Ideal.hostDivf_def]

theorem v45_at (n : Fin 100000) (k : Fin 32) : val_main_v45 (F := Ideal) x6 (ix2 n k) = x6 (ix1 k) := by
  have h1 : idx_main_v45 (ix2 n k) = ix2 (0 : Fin 1) k :=
    funext fun a => Fin.ext (by match a with | ⟨0, _⟩ => rfl | ⟨1, _⟩ => rfl)
  have h2 : idx_main_v44 (ix2 (0 : Fin 1) k) = ix1 k := funext fun a => Fin.ext (by match a with | ⟨0, _⟩ => rfl)
  rw [val_main_v45_apply, h1, val_main_v44_apply, h2]

theorem call1_v0_at (n : Fin 100000) (k : Fin 32) : val_main_call1_v0 (F := Ideal) (ix2 n k) = 0 := by
  rw [val_main_call1_v0_apply, val_main_call1_cst_apply, Ideal.ofBits_def, Ideal.ofBits_zero_f32]

/-- The second dense layer's product, a sum over the 64 hidden columns. -/
theorem v43_at (n : Fin 100000) (k : Fin 32) :
    val_main_v43 (F := Ideal) x0 x1 x2 x3 x4 x5 (ix2 n k)
      = ∑ j : Fin 64, Ideal.div (agg x1 x2 (fun r => GraphConv.hidden x0 x1 x2 x3 x4 r j) n) (degree x2 n) * x5 (ix2 j k) := by
  rw [val_main_v43_apply]
  refine Finset.sum_congr rfl fun j _ => ?_
  have hl : lidx_main_v43 (ix2 n k) j = ix2 n j :=
    funext fun a => Fin.ext (by match a with | ⟨0, _⟩ => rfl | ⟨1, _⟩ => rfl)
  have hr : ridx_main_v43 (ix2 n k) j = ix2 j k :=
    funext fun a => Fin.ext (by match a with | ⟨0, _⟩ => rfl | ⟨1, _⟩ => rfl)
  rw [hl, hr, v42_at]

/-- Layer two before pooling at row n, column k. -/
theorem v47_at (n : Fin 100000) (k : Fin 32) :
    val_main_v47 (F := Ideal) x0 x1 x2 x3 x4 x5 x6 (ix2 n k) = refPre x0 x1 x2 x3 x4 x5 x6 n k := by
  rw [val_main_v47_apply, val_main_v46_apply, v43_at, v45_at, call1_v0_at, Ideal.addf_def, Ideal.maximumf_def, refPre]

/-! ## The head -/

/-- The sum of the 32 columns of row n. -/
theorem v48_at (n : Fin 100000) :
    val_main_v48 (F := Ideal) x0 x1 x2 x3 x4 x5 x6 (ix1 n) = ∑ k : Fin 32, refPre x0 x1 x2 x3 x4 x5 x6 n k := by
  rw [val_main_v48_apply, val_main_cst_10_apply, Ideal.ofBits_def, Ideal.ofBits_zero_f32, zero_add]
  refine Finset.sum_congr rfl fun k _ => ?_
  have h : idx_main_v48 (ix1 n) k = ix2 n k :=
    funext fun a => Fin.ext (by match a with | ⟨0, _⟩ => rfl | ⟨1, _⟩ => rfl)
  rw [h, v47_at]

/-- The mean of the 32 columns. -/
theorem v51_at (n : Fin 100000) :
    val_main_v51 (F := Ideal) x0 x1 x2 x3 x4 x5 x6 (ix2 n (0 : Fin 1))
      = Ideal.div (∑ k : Fin 32, refPre x0 x1 x2 x3 x4 x5 x6 n k) 32 := by
  have h : idx_main_v49 (ix2 n (0 : Fin 1)) = ix1 n := funext fun a => Fin.ext (by match a with | ⟨0, _⟩ => rfl)
  rw [val_main_v51_apply, val_main_v49_apply, h, v48_at, val_main_v50_apply, val_main_cst_11_apply, Ideal.ofBits_def,
    ofBits_32_f32, Ideal.hostDivf_def]

/-- The 1×1 dense layer. -/
theorem v55_at (n : Fin 100000) :
    val_main_v55 (F := Ideal) x0 x1 x2 x3 x4 x5 x6 x7 x8 (ix2 n (0 : Fin 1))
      = Ideal.div (∑ k : Fin 32, refPre x0 x1 x2 x3 x4 x5 x6 n k) 32 * x7 (ix2 (0 : Fin 1) (0 : Fin 1)) + x8 (ix1 (0 : Fin 1)) := by
  have hl : lidx_main_v52 (ix2 n (0 : Fin 1)) (0 : Fin 1) = ix2 n (0 : Fin 1) :=
    funext fun a => Fin.ext (by match a with | ⟨0, _⟩ => rfl | ⟨1, _⟩ => rfl)
  have hr : ridx_main_v52 (ix2 n (0 : Fin 1)) (0 : Fin 1) = ix2 (0 : Fin 1) (0 : Fin 1) :=
    funext fun a => Fin.ext (by match a with | ⟨0, _⟩ => rfl | ⟨1, _⟩ => rfl)
  have h1 : idx_main_v54 (ix2 n (0 : Fin 1)) = ix2 (0 : Fin 1) (0 : Fin 1) :=
    funext fun a => Fin.ext (by match a with | ⟨0, _⟩ => rfl | ⟨1, _⟩ => rfl)
  have h2 : idx_main_v53 (ix2 (0 : Fin 1) (0 : Fin 1)) = ix1 (0 : Fin 1) :=
    funext fun a => Fin.ext (by match a with | ⟨0, _⟩ => rfl)
  rw [val_main_v55_apply, val_main_v52_apply, Fin.sum_univ_one, hl, hr, v51_at, val_main_v54_apply, h1, val_main_v53_apply, h2,
    Ideal.addf_def]

/-- The result at row n: the logistic function of the dense layer's value. -/
theorem v61_at (n : Fin 100000) :
    val_main_v61 (F := Ideal) x0 x1 x2 x3 x4 x5 x6 x7 x8 (ix2 n (0 : Fin 1)) = refOut x0 x1 x2 x3 x4 x5 x6 x7 x8 n := by
  rw [val_main_v61_apply, val_main_v60_apply, val_main_cst_13_apply, val_main_v59_apply, val_main_v58_apply, val_main_cst_12_apply,
    val_main_v57_apply, val_main_v56_apply, v55_at, Ideal.ofBits_def, ofBits_one_f32, Ideal.hostNegf_def, Ideal.negf_def,
    Ideal.hostUnary_exp_def, Ideal.addf_def, Ideal.hostDivf_def, refOut, head, Ideal.logistic]

end Layers

/-- The reference run's result term is the reference arrangement of the graph convolution, row by row. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x32, .f32⟩ : BufTy).Contents (Elt Ideal)) (x6 : (⟨S32, .f32⟩ : BufTy).Contents (Elt Ideal))
    (x7 : (⟨S1x1, .f32⟩ : BufTy).Contents (Elt Ideal)) (x8 : (⟨S1, .f32⟩ : BufTy).Contents (Elt Ideal)) :
    val_main_v61 (F := Ideal) x0 x1 x2 x3 x4 x5 x6 x7 x8 = outArr (refOut x0 x1 x2 x3 x4 x5 x6 x7 x8) := by
  funext i
  obtain ⟨n, u, rfl⟩ : ∃ (n : Fin 100000) (u : Fin 1), i = ix2 n u := ⟨i 0, i 1, eq_ix2 i⟩
  obtain rfl : u = 0 := Subsingleton.elim _ _
  rw [v61_at, outArr]

end Cert.ReferenceIdeal.RefValue

end
-- ==== Proof.LayerTwoLaw.lean ====
/-
  The two arrangements of layer two agree on real data.

  With every entry of x, W1, b1 and W2 a real number, each hidden entry is real, the degree is a real number at least
  one, and
      (∑ over the edges e landing on n of ∑ j, hidden (srcRow e) j · W2 j k) / degree n
    = ∑ j, ((∑ over the edges e landing on n of hidden (srcRow e) j) / degree n) · W2 j k
  by exchanging the two finite sums and moving the constant factor W2 j k and the division by the degree across the
  edge sum: linearity over the reals.  (On the extended reals the step needs the data finite: a product does not
  distribute over a sum that mixes the two infinities.)
-/
import proofs.«156890_j18442589569957_2_alg».proof.Proof.Spec

noncomputable section

open scoped BigOperators

namespace Cert.GraphConv

open Idealize.ShloMosaic Idealize.ShloMosaic.ValueIdx

/-- A finite sum of coerced reals is the coerced real sum. -/
theorem coe_sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two coerced reals is the coerced larger real. -/
theorem coe_max_real (a b : ℝ) : max (a : EReal) (b : EReal) = ((max a b : ℝ) : EReal) :=
  ((EReal.coe_strictMono.monotone).map_max (a := a) (b := b)).symm

/-- The edges landing on row n. -/
abbrev landing (dst : Edges) (n : Fin 100000) : Finset (Fin 1600000) :=
  Finset.univ.filter (fun e => lands dst e n)

/-- The degree is a real number at least one. -/
theorem degree_real (dst : Edges) (n : Fin 100000) : ∃ d : ℝ, 1 ≤ d ∧ degree dst n = (d : EReal) := by
  refine ⟨max (∑ _e ∈ landing dst n, (1 : ℝ)) 1, le_max_right _ _, ?_⟩
  unfold degree segSum
  rw [zero_add, ← EReal.coe_one, coe_sum_real, coe_max_real]

/-- Aggregating a real column gives the coerced real edge sum. -/
theorem agg_real (src dst : Edges) (c : Fin 100000 → ℝ) (n : Fin 100000) :
    agg src dst (fun r => ((c r : ℝ) : EReal)) n = ((∑ e ∈ landing dst n, c (srcRow src e) : ℝ) : EReal) := by
  unfold agg segSum
  rw [zero_add, coe_sum_real]

/-- On real data every hidden entry is real. -/
theorem hidden_real (x : Mat 100000 64) (src dst : Edges) (W1 : Mat 64 64) (b1 : Row 64)
    (hx : ∀ i, ∃ r : ℝ, x i = (r : EReal)) (hW1 : ∀ i, ∃ r : ℝ, W1 i = (r : EReal))
    (hb1 : ∀ i, ∃ r : ℝ, b1 i = (r : EReal)) (n : Fin 100000) (j : Fin 64) :
    ∃ r : ℝ, hidden x src dst W1 b1 n j = (r : EReal) := by
  choose xr hxr using hx
  choose w1 hw1 using hW1
  choose c1 hc1 using hb1
  obtain ⟨d, hd1, hd⟩ := degree_real dst n
  have hd0 : d ≠ 0 := by linarith
  refine ⟨max ((∑ q : Fin 64, (∑ e ∈ landing dst n, xr (ix2 (srcRow src e) q)) * (1 / d) * w1 (ix2 q j)) + c1 (ix1 j)) 0, ?_⟩
  unfold hidden
  have hterm : ∀ q : Fin 64,
      Ideal.div (agg src dst (fun r => x (ix2 r q)) n) (degree dst n) * W1 (ix2 q j)
        = (((∑ e ∈ landing dst n, xr (ix2 (srcRow src e) q)) * (1 / d) * w1 (ix2 q j) : ℝ) : EReal) := by
    intro q
    have hcol : (fun r => x (ix2 r q)) = fun r => ((xr (ix2 r q) : ℝ) : EReal) := funext fun r => hxr _
    rw [hcol, agg_real, hd, Ideal.div_coe hd0, hw1, ← EReal.coe_mul, ← EReal.coe_mul]
  rw [Finset.sum_congr rfl (fun q _ => hterm q), coe_sum_real, hc1, ← EReal.coe_add, ← EReal.coe_zero, coe_max_real]

/-- On real data the kernel's arrangement of layer two (project each row by W2, then aggregate and normalise) equals
    the reference's (aggregate and normalise, then project). -/
theorem kerPre_eq_refPre (x : Mat 100000 64) (src dst : Edges) (W1 : Mat 64 64) (b1 : Row 64) (W2 : Mat 64 32) (b2 : Row 32)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (n : Fin 100000) (k : Fin 32) :
    kerPre x src dst W1 b1 W2 b2 n k = refPre x src dst W1 b1 W2 b2 n k := by
  choose H hH using fun r j => hidden_real x src dst W1 b1 hx hW1 hb1 r j
  choose w hw using hW2
  obtain ⟨d, hd1, hd⟩ := degree_real dst n
  have hd0 : d ≠ 0 := by linarith
  -- the kernel's inner term as a coerced real
  have hker : Ideal.div (agg src dst (fun r => proj x src dst W1 b1 W2 r k) n) (degree dst n)
      = (((∑ e ∈ landing dst n, ∑ j : Fin 64, H (srcRow src e) j * w (ix2 j k)) * (1 / d) : ℝ) : EReal) := by
    have hcol : (fun r => proj x src dst W1 b1 W2 r k)
        = fun r => ((∑ j : Fin 64, H r j * w (ix2 j k) : ℝ) : EReal) := by
      funext r
      unfold proj
      rw [← coe_sum_real]
      refine Finset.sum_congr rfl (fun j _ => ?_)
      rw [hH, hw, EReal.coe_mul]
    rw [hcol, agg_real, hd, Ideal.div_coe hd0, ← EReal.coe_mul]
  -- the reference's inner term as a coerced real
  have href : (∑ j : Fin 64, Ideal.div (agg src dst (fun r => hidden x src dst W1 b1 r j) n) (degree dst n) * W2 (ix2 j k))
      = ((∑ j : Fin 64, (∑ e ∈ landing dst n, H (srcRow src e) j) * (1 / d) * w (ix2 j k) : ℝ) : EReal) := by
    rw [← coe_sum_real]
    refine Finset.sum_congr rfl (fun j _ => ?_)
    have hcol : (fun r => hidden x src dst W1 b1 r j) = fun r => ((H r j : ℝ) : EReal) := funext fun r => hH r j
    rw [hcol, agg_real, hd, Ideal.div_coe hd0, hw, ← EReal.coe_mul, ← EReal.coe_mul]
  -- linearity over the reals
  have hreal : (∑ e ∈ landing dst n, ∑ j : Fin 64, H (srcRow src e) j * w (ix2 j k)) * (1 / d)
      = ∑ j : Fin 64, (∑ e ∈ landing dst n, H (srcRow src e) j) * (1 / d) * w (ix2 j k) := by
    rw [Finset.sum_comm, Finset.sum_mul]
    refine Finset.sum_congr rfl (fun j _ => ?_)
    rw [← Finset.sum_mul]
    ring
  unfold kerPre refPre
  rw [hker, href, hreal]

/-- Hence the two results agree row by row. -/
theorem kerOut_eq_refOut (x : Mat 100000 64) (src dst : Edges) (W1 : Mat 64 64) (b1 : Row 64) (W2 : Mat 64 32) (b2 : Row 32)
    (Wd : Mat 1 1) (bd : Row 1)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (n : Fin 100000) :
    kerOut x src dst W1 b1 W2 b2 Wd bd n = refOut x src dst W1 b1 W2 b2 Wd bd n := by
  unfold kerOut refOut
  exact congrArg (head Wd bd) (funext fun k => kerPre_eq_refPre x src dst W1 b1 W2 b2 hx hW1 hb1 hW2 n k)

end Cert.GraphConv

end
-- ==== Proof.FiniteInputs.lean ====
/-
  From the precondition to real numbers.

  The precondition says, array by array, that every entry x satisfies |x| < +∞ (the conjunction of one jnp.all per
  float argument).  An extended real whose absolute value is below +∞ is neither infinity, hence a real number.  The
  four arrays the linearity argument needs real are the node features, the first layer's weights and bias, and the
  second layer's weights.
-/
import proofs.«156890_j18442589569957_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The single-precision pattern with all exponent bits set, sign bit clear and a zero significand denotes +∞. -/
theorem inf_bits : Ideal.ofBits .f32 0x7F800000#32 = (⊤ : EReal) := by
  simp [Ideal.ofBits, Ideal.ieee]

/-- The one-bit word of a truth value is the all-ones bit exactly when the truth value is true. -/
theorem ofBool_eq_one (b : Bool) : BitVec.ofBool b = 1#1 ↔ b = true := by cases b <;> decide

/-- One entry.  The absolute value of a is max a (-a), and the ordered less-than comparison is the strict order of the
    extended reals.  At a = ⊥ the maximum is -⊥ = ⊤ and at a = ⊤ it is ⊤, and ⊤ < ⊤ is false; so when the comparison
    of |a| against +∞ gives the bit 1, a is the image of a real number. -/
theorem real_of_abs_lt_inf (a : Ideal .f32)
    (h : FloatOps.cmpf .olt (FloatOps.absf a) (FloatOps.ofBits (F := Ideal) .f32 0x7F800000#32) = 1#1) :
    ∃ r : ℝ, a = (r : EReal) := by
  change Ideal.cmp .olt (max a (-a)) (Ideal.ofBits .f32 0x7F800000#32) = 1#1 at h
  rw [inf_bits] at h
  unfold Ideal.cmp at h
  rw [ofBool_eq_one] at h
  simp only [decide_eq_true_eq] at h
  induction a using EReal.rec with
  | bot => simp at h
  | top => simp at h
  | coe r => exact ⟨r, rfl⟩

/-- The rank-zero shape has exactly one index. -/
instance : Subsingleton S_.Idx := ⟨fun a b => funext fun d => d.elim0⟩

/-- One array.  A conjunction over all entries that comes out 1 met a 1 at every entry.  Entry i of the compared array
    is the comparison of |x i| against the constant +∞, the same at every index, so every entry of x is real by the
    one-entry lemma. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant S_ .f32 0x7F800000#32))) init hr hu ix0 = 1#1)
    (i : s.Idx) : ∃ r : ℝ, x i = (r : EReal) :=
  real_of_abs_lt_inf (x i) (Host.reduce_andi_all _ init hr hu ix0 e i)

/-- When the precondition's value is the all-ones bit, every entry of the node features, of W1, of b1 and of W2 is a
    real number. -/
theorem real_of_pre [Cert.Pre_finite_inputs.Facts]
    (x0 : FVec Ideal S100000x64 .f32) (x1 x2 : IVec S1600000 32) (x3 : FVec Ideal S64x64 .f32) (x4 : FVec Ideal S64 .f32)
    (x5 : FVec Ideal S64x32 .f32) (x6 : FVec Ideal S32 .f32) (x7 : FVec Ideal S1x1 .f32) (x8 : FVec Ideal S1 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x3 i = (r : EReal)) ∧
    (∀ i, ∃ r : ℝ, x4 i = (r : EReal)) ∧ (∀ i, ∃ r : ℝ, x5 i = (r : EReal)) := by
  -- the value at the one index of the rank-zero result
  have e := congrFun h ValueIdx.ix0
  -- the value is the conjunction, associated to the left, of seven one-bit words, one per float argument
  dsimp only [Cert.Pre_finite_inputs.fn, Cert.Pre_finite_inputs.fn_part1] at e
  -- an "and" of one-bit words is 1 exactly when both are
  simp only [andi, IntOp.andi_eq_one] at e
  -- the conjuncts for the four arrays needed; those of the last three arguments are dropped
  obtain ⟨⟨⟨⟨⟨⟨e0, e3⟩, e4⟩, e5⟩, -⟩, -⟩, -⟩ := e
  exact ⟨real_of_all x0 _ _ _ _ e0, real_of_all x3 _ _ _ _ e3, real_of_all x4 _ _ _ _ e4, real_of_all x5 _ _ _ _ e5⟩

end Cert.FiniteInputs

end
-- ==== Proof.Claims.lean ====
/-
  The five claims.

  The three frames are the generated runs (for the reference, its run with the result dropped); the idealization
  rewrote nothing, so there is nothing to preserve.  For the value claim: the idealized kernel's result buffer ends at
  kerOut of the nine arguments, row by row, and the idealized reference's at refOut of the same arguments (the two
  memories agree on them); the precondition makes the node features, W1, b1 and W2 real, and on real data
  kerOut = refOut: the second weight matrix may be applied before or after the edge sum and the division by the
  degree.
-/
import proofs.«156890_j18442589569957_2_alg».proof.Defs
import proofs.«156890_j18442589569957_2_alg».proof.Proof.Gen.Kernel.Frame
import proofs.«156890_j18442589569957_2_alg».proof.Proof.Gen.KernelIdeal.Frame
import proofs.«156890_j18442589569957_2_alg».proof.Proof.Gen.ReferenceIdeal.Run
import proofs.«156890_j18442589569957_2_alg».proof.Proof.Gen.ReferenceIdeal.Read
import proofs.«156890_j18442589569957_2_alg».proof.Proof.Gen.Pre_finite_inputs
import proofs.«156890_j18442589569957_2_alg».proof.Proof.KerRun
import proofs.«156890_j18442589569957_2_alg».proof.Proof.KerBoundary
import proofs.«156890_j18442589569957_2_alg».proof.Proof.KerResult
import proofs.«156890_j18442589569957_2_alg».proof.Proof.RefValue
import proofs.«156890_j18442589569957_2_alg».proof.Proof.LayerTwoLaw
import proofs.«156890_j18442589569957_2_alg».proof.Proof.FiniteInputs

noncomputable section

namespace Cert.Proof.Claims

open Idealize.ShloMosaic Idealize.ShloMosaic.TcCoe Idealize.SL.Sem Cert.GraphConv

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's run: the result buffer ends at kerOut of the arguments, the arguments as launched. -/
theorem ker_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v29)
        = outArr (kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono
    (fun r h c => ⟨(h c).1.trans ((Cert.KernelIdeal.KerValue.W4_result m ρ c).trans
        (Cert.KernelIdeal.KerValue.result_eq _ _ _ _ _ _ _ _ _)), (h c).2⟩)
    (Cert.KernelIdeal.KerValue.run_result (F := Ideal) m ρ)

/-- The idealized reference's run: the result buffer ends at refOut of the arguments, the arguments as launched. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v61)
        = outArr (refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run (Cert.ReferenceIdeal.defs (F := Ideal)) _ _).mono
    (fun r h c => ⟨(h c).1.trans ((Cert.ReferenceIdeal.Read.val_main_v61_eq (F := Ideal) _ _ _ _ _ _ _ _ _).trans
        (Cert.ReferenceIdeal.RefValue.result_eq _ _ _ _ _ _ _ _ _)), (h c).2⟩)
    (Cert.ReferenceIdeal.Value.run (F := Ideal) m' ρ')

/-- From memories agreeing on the arguments both idealized programs end with the same result array: kerOut of the
    arguments, which on the real data the precondition grants is refOut of them. -/
theorem algebraic : Cert.algebraic_KernelIdeal_ReferenceIdeal := by
  intro m ρ m' ρ' hpre hagree
  refine ⟨fun c => outArr (kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ker_run m ρ, ?_⟩
  refine (θ_run (Cert.ReferenceIdeal.defs (F := Ideal)) _ _).mono (fun r h c => ⟨(h c).1.trans ?_, (h c).2⟩) (ref_run m' ρ')
  obtain ⟨a0, a1, a2, a3, a4, a5, a6, a7, a8⟩ := hagree c
  rw [a0, a1, a2, a3, a4, a5, a6, a7, a8]
  obtain ⟨hx, hW1, hb1, hW2⟩ := Cert.FiniteInputs.real_of_pre _ _ _ _ _ _ _ _ _ (hpre c)
  exact congrArg outArr (funext fun n => (kerOut_eq_refOut _ _ _ _ _ _ _ _ _ hx hW1 hb1 hW2 n).symm)

end Cert.Proof.Claims

end
-- ==== Proof.lean ====
/-
  The certificate of the two-layer mean-aggregating graph convolution with a pooled logistic head: a Pallas
  implementation in two kernels (the second weight matrix applied before the second edge aggregation) against its
  plain reference (applied after).  Proof/Spec.lean states the mathematics, Proof/LayerTwoLaw.lean the one law that
  joins the two arrangements on real data, Proof/Claims.lean the five claims; the program's stated facts are the
  instances the generated modules prove.
-/
import proofs.«156890_j18442589569957_2_alg».proof.Defs
import proofs.«156890_j18442589569957_2_alg».proof.Proof.Gen.Kernel
import proofs.«156890_j18442589569957_2_alg».proof.Proof.Gen.KernelIdeal
import proofs.«156890_j18442589569957_2_alg».proof.Proof.Gen.ReferenceIdeal
import proofs.«156890_j18442589569957_2_alg».proof.Proof.Gen.Pre_finite_inputs
import proofs.«156890_j18442589569957_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
